-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x36 : Shape := ⟨2, ![16384, 36]⟩
abbrev S36x128 : Shape := ⟨2, ![36, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x9 : Shape := ⟨2, ![64, 9]⟩
abbrev S9 : Shape := ⟨1, ![9]⟩
abbrev S64x1 : Shape := ⟨2, ![64, 1]⟩
abbrev S1 : Shape := ⟨1, ![1]⟩
abbrev S_ : Shape := ⟨0, ![]⟩

class Facts : Prop where
  bcast_S_S16384x36 : S_.BroadcastsInDim S16384x36 (![] : Fin 0 → Fin S16384x36.rank)
  reducesTo_S16384x36_S_d0_1 : S16384x36.ReducesTo [0, 1] S_
  h_S_ : 0 < S_.numel
  bcast_S_S36x128 : S_.BroadcastsInDim S36x128 (![] : Fin 0 → Fin S36x128.rank)
  reducesTo_S36x128_S_d0_1 : S36x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x9 : S_.BroadcastsInDim S64x9 (![] : Fin 0 → Fin S64x9.rank)
  reducesTo_S64x9_S_d0_1 : S64x9.ReducesTo [0, 1] S_
  bcast_S_S9 : S_.BroadcastsInDim S9 (![] : Fin 0 → Fin S9.rank)
  reducesTo_S9_S_d0 : S9.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S64x9 .f32) (main_arg8 : FVec F S9 .f32) (main_arg9 : FVec F S64x64 .f32) (main_arg10 : FVec F S64 .f32) (main_arg11 : FVec F S64x1 .f32) (main_arg12 : FVec F S1 .f32) (main_v33 : IVec S_ 1) : IVec S_ 1 :=
  let main_v34 : FVec F S64x9 .f32 := Host.absf main_arg7
  let main_cst_12 : FVec F S_ .f32 := constant S_ .f32 0x7F800000#32
  let main_v35 : FVec F S64x9 .f32 := broadcastInDim S64x9 ![] bcast_S_S64x9 main_cst_12
  let main_v36 : IVec S64x9 1 := cmpf .olt main_v34 main_v35
  let main_c_13 : IVec S_ 1 := constantI S_ 1 1#1
  let main_v37 : IVec S_ 1 := (fun x v => Host.reduce IntOp.andi x v reducesTo_S64x9_S_d0_1 h_S_) main_v36 main_c_13
  let main_v38 : IVec S_ 1 := andi main_v33 main_v37
  let main_v39 : FVec F S9 .f32 := Host.absf main_arg8
  let main_cst_14 : FVec F S_ .f32 := constant S_ .f32 0x7F800000#32
  let main_v40 : FVec F S9 .f32 := broadcastInDim S9 ![] bcast_S_S9 main_cst_14
  let main_v41 : IVec S9 1 := cmpf .olt main_v39 main_v40
  let main_c_15 : IVec S_ 1 := constantI S_ 1 1#1
  let main_v42 : IVec S_ 1 := (fun x v => Host.reduce IntOp.andi x v reducesTo_S9_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S64x64 .f32) (main_arg6 : FVec F S64 .f32) (main_arg7 : FVec F S64x9 .f32) (main_arg8 : FVec F S9 .f32) (main_arg9 : FVec F S64x64 .f32) (main_arg10 : FVec F S64 .f32) (main_arg11 : FVec F S64x1 .f32) (main_arg12 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x36 .f32) (main_arg1 : FVec F S36x128 .f32) (main_arg2 : FVec F S128 .f32) (main_arg3 : FVec F S128x64 .f32) (main_arg4 : FVec F S64 .f32) (main_arg5 : FVec F S64x64 .f32) (main_arg6 : FVec F S64 .f32) (main_arg7 : FVec F S64x9 .f32) (main_arg8 : FVec F S9 .f32) (main_arg9 : FVec F S64x64 .f32) (main_arg10 : FVec F S64 .f32) (main_arg11 : FVec F S64x1 .f32) (main_arg12 : FVec F S1 .f32) : IVec S_ 1 :=
  let main_v0 : FVec F S16384x36 .f32 := Host.absf main_arg0
  let main_cst : FVec F S_ .f32 := constant S_ .f32 0x7F800000#32
  let main_v1 : FVec F S16384x36 .f32 := broadcastInDim S16384x36 ![] bcast_S_S16384x36 main_cst
  let main_v2 : IVec S16384x36 1 := cmpf .olt main_v0 main_v1
  let main_c : IVec S_ 1 := constantI S_ 1 1#1
  let main_v3 : IVec S_ 1 := (fun x v => Host.reduce IntOp.andi x v reducesTo_S16384x36_S_d0_1 h_S_) main_v2 main_c
  let main_v4 : FVec F S36x128 .f32 := Host.absf main_arg1
  let main_cst_0 : FVec F S_ .f32 := constant S_ .f32 0x7F800000#32
  let main_v5 : FVec F S36x128 .f32 := broadcastInDim S36x128 ![] bcast_S_S36x128 main_cst_0
  let main_v6 : IVec S36x128 1 := cmpf .olt main_v4 main_v5
  let main_c_1 : IVec S_ 1 := constantI S_ 1 1#1
  let main_v7 : IVec S_ 1 := (fun x v => Host.reduce IntOp.andi x v reducesTo_S36x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_v13 main_v16
-- ==== Kernel.lean ====
abbrev S16384x36 : Shape := ⟨2, ![16384, 36]⟩
abbrev S36x128 : Shape := ⟨2, ![36, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x9 : Shape := ⟨2, ![64, 9]⟩
abbrev S9 : Shape := ⟨1, ![9]⟩
abbrev S64x1 : Shape := ⟨2, ![64, 1]⟩
abbrev S1 : Shape := ⟨1, ![1]⟩
abbrev S1x128 : Shape := ⟨2, ![1, 128]⟩
abbrev S1x64 : Shape := ⟨2, ![1, 64]⟩
abbrev S1x9 : Shape := ⟨2, ![1, 9]⟩
abbrev S1x1 : Shape := ⟨2, ![1, 1]⟩
abbrev S36x16384 : Shape := ⟨2, ![36, 16384]⟩
abbrev S9x16384 : Shape := ⟨2, ![9, 16384]⟩
abbrev S1x16384 : Shape := ⟨2, ![1, 16384]⟩
abbrev S16384x128 : Shape := ⟨2, ![16384, 128]⟩
abbrev S16384x64 : Shape := ⟨2, ![16384, 64]⟩
abbrev S64x128 : Shape := ⟨2, ![64, 128]⟩
abbrev S64x10 : Shape := ⟨2, ![64, 10]⟩
abbrev S128x10 : Shape := ⟨2, ![128, 10]⟩
abbrev S10x16384 : Shape := ⟨2, ![10, 16384]⟩
abbrev S1x10 : Shape := ⟨2, ![1, 10]⟩
abbrev S10x1 : Shape := ⟨2, ![10, 1]⟩
abbrev S16384x9 : Shape := ⟨2, ![16384, 9]⟩
abbrev S16384x1 : Shape := ⟨2, ![16384, 1]⟩

abbrev nBuf : Space → Nat
  | .hbm => 24
  | .vmem => 15
  | .smem => 0
  | _ => 0

abbrev bufTy : (tb : Table) → Fin (tcTables nBuf tb) → BufTy
  | .hbm, ⟨0, _⟩ => ⟨S16384x36, .f32⟩
  | .hbm, ⟨1, _⟩ => ⟨S36x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x9, .f32⟩
  | .hbm, ⟨8, _⟩ => ⟨S9, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x128, .f32⟩
  | .hbm, ⟨14, _⟩ => ⟨S1x64, .f32⟩
  | .hbm, ⟨15, _⟩ => ⟨S1x64, .f32⟩
  | .hbm, ⟨16, _⟩ => ⟨S1x9, .f32⟩
  | .hbm, ⟨17, _⟩ => ⟨S1x64, .f32⟩
  | .hbm, ⟨18, _⟩ => ⟨S1x1, .f32⟩
  | .hbm, ⟨19, _⟩ => ⟨S36x16384, .f32⟩
  | .hbm, ⟨20, _⟩ => ⟨S9x16384, .f32⟩
  | .hbm, ⟨21, _⟩ => ⟨S1x16384, .f32⟩
  | .hbm, ⟨22, _⟩ => ⟨S16384x9, .f32⟩
  | .hbm, ⟨23, _⟩ => ⟨S16384x1, .f32⟩
  | .local _ .vmem, ⟨0, _⟩ => ⟨S36x16384, .f32⟩
  | .local _ .vmem, ⟨1, _⟩ => ⟨S36x128, .f32⟩
  | .local _ .vmem, ⟨2, _⟩ => ⟨S1x128, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S64x9, .f32⟩
  | .local _ .vmem, ⟨8, _⟩ => ⟨S1x9, .f32⟩
  | .local _ .vmem, ⟨9, _⟩ => ⟨S64x64, .f32⟩
  | .local _ .vmem, ⟨10, _⟩ => ⟨S1x64, .f32⟩
  | .local _ .vmem, ⟨11, _⟩ => ⟨S64x1, .f32⟩
  | .local _ .vmem, ⟨12, _⟩ => ⟨S1x1, .f32⟩
  | .local _ .vmem, ⟨13, _⟩ => ⟨S9x16384, .f32⟩
  | .local _ .vmem, ⟨14, _⟩ => ⟨S1x16384, .f32⟩
  | _, _ => ⟨S16384x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S36x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S9x16384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

class Facts₀ : Prop where
  bcast_S128_S1x128_1 : S128.BroadcastsInDim S1x128 (![1] : Fin 1 → Fin S1x128.rank)
  bcast_S64_S1x64_1 : S64.BroadcastsInDim S1x64 (![1] : Fin 1 → Fin S1x64.rank)
  bcast_S9_S1x9_1 : S9.BroadcastsInDim S1x9 (![1] : Fin 1 → Fin S1x9.rank)
  bcast_S1_S1x1_1 : S1.BroadcastsInDim S1x1 (![1] : Fin 1 → Fin S1x1.rank)
  transposes_S16384x36_S36x16384_1_0 : S16384x36.Transposes [1, 0] S36x16384
  inb_S36x16384_S36x16384_0_0 : ∀ a, (![0, 0] : Fin 2 → Nat) a + S36x16384.size a ≤ S36x16384.size a
  h_S36x16384 : 0 < S36x16384.numel
  shapeCasts_S36x16384_S36x16384 : S36x16384.ShapeCasts S36x16384
  inb_S36x128_S36x128_0_0 : ∀ a, (![0, 0] : Fin 2 → Nat) a + S36x128.size a ≤ S36x128.size a
  h_S36x128 : 0 < S36x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S64x64_S64x64_0_0 : ∀ a, (![0, 0] : Fin 2 → Nat) a + S64x64.size a ≤ S64x64.size a
  h_S64x64 : 0 < S64x64.numel
  concatenates_S64x64_S64x64_S64x128_d1 : Shape.Concatenates [S64x64, S64x64] S64x128 1
  concatenates_S1x64_S1x64_S1x128_d1 : Shape.Concatenates [S1x64, S1x64] S1x128 1
  inb_S64x9_S64x9_0_0 : ∀ a, (![0, 0] : Fin 2 → Nat) a + S64x9.size a ≤ S64x9.size a
  h_S64x9 : 0 < S64x9.numel
  concatenates_S64x9_S64x1_S64x10_d1 : Shape.Concatenates [S64x9, S64x1] S64x10 1
  inb_S64x1_S64x1_0_0 : ∀ a, (![0, 0] : Fin 2 → Nat) a + S64x1.size a ≤ S64x1.size a
  h_S64x1 : 0 < S64x1.numel
  concatenates_S64x10_S64x10_S128x10_d0 : Shape.Concatenates [S64x10, S64x10] S128x10 0
  inb_S1x9_S1x9_0_0 : ∀ a, (![0, 0] : Fin 2 → Nat) a + S1x9.size a ≤ S1x9.size a
  h_S1x9 : 0 < S1x9.numel
  shapeCasts_S1x9_S1x9 : S1x9.ShapeCasts S1x9
  inb_S1x1_S1x1_0_0 : ∀ a, (![0, 0] : Fin 2 → Nat) a + S1x1.size a ≤ S1x1.size a
  h_S1x1 : 0 < S1x1.numel
  shapeCasts_S1x1_S1x1 : S1x1.ShapeCasts S1x1
  concatenates_S1x9_S1x1_S1x10_d1 : Shape.Concatenates [S1x9, S1x1] S1x10 1
  broadcasts_S10x1_S10x16384 : S10x1.Broadcasts S10x16384
  slices_S10x16384_o0_0_S9x16384 : S10x16384.Slices ![0, 0] S9x16384
  inb_S9x16384_S9x16384_0_0 : ∀ a, (![0, 0] : Fin 2 → Nat) a + S9x16384.size a ≤ S9x16384.size a
  h_S9x16384 : 0 < S9x16384.numel
  slices_S10x16384_o9_0_S1x16384 : S10x16384.Slices ![9, 0] S1x16384
  inb_S1x16384_S1x16384_0_0 : ∀ a, (![0, 0] : Fin 2 → Nat) a + S1x16384.size a ≤ S1x16384.size a
  h_S1x16384 : 0 < S1x16384.numel
  transposes_S9x16384_S16384x9_1_0 : S9x16384.Transposes [1, 0] S16384x9
  shapeCasts_S1x16384_S16384x1 : S1x16384.ShapeCasts S16384x1
  dot_S36x16384_S36x128_S16384x128_0_0_1_1_n_n_wf : DotDims.WF S36x16384 S36x128 S16384x128 [0] [0] [1] [1] [] []
  dot_S16384x128_S128x64_S16384x64_1_0_0_1_n_n_wf : DotDims.WF S16384x128 S128x64 S16384x64 [1] [0] [0] [1] [] []
  dot_S16384x64_S64x128_S16384x128_1_0_0_1_n_n_wf : DotDims.WF S16384x64 S64x128 S16384x128 [1] [0] [0] [1] [] []
  dot_S128x10_S16384x128_S10x16384_0_1_1_0_n_n_wf : DotDims.WF S128x10 S16384x128 S10x16384 [0] [1] [1] [0] [] []
  dot_S1x10_S1x1_S10x1_0_0_1_1_n_n_wf : DotDims.WF S1x10 S1x1 S10x1 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole

variable [Facts₀]

def dot_S36x16384_S36x128_S16384x128_0_0_1_1_n_n : DotDims S36x16384 S36x128 S16384x128 where
  lhsContracting := [0]
  rhsContracting := [0]
  lhsNonContracting := [1]
  rhsNonContracting := [1]
  lhsBatch := []
  rhsBatch := []
  wf := dot_S36x16384_S36x128_S16384x128_0_0_1_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S128x10_S16384x128_S10x16384_0_1_1_0_n_n : DotDims S128x10 S16384x128 S10x16384 where
  lhsContracting := [0]
  rhsContracting := [1]
  lhsNonContracting := [1]
  rhsNonContracting := [0]
  lhsBatch := []
  rhsBatch := []
  wf := dot_S128x10_S16384x128_S10x16384_0_1_1_0_n_n_wf
def dot_S1x10_S1x1_S10x1_0_0_1_1_n_n : DotDims S1x10 S1x1 S10x1 where
  lhsContracting := [0]
  rhsContracting := [0]
  lhsNonContracting := [1]
  rhsNonContracting := [1]
  lhsBatch := []
  rhsBatch := []
  wf := dot_S1x10_S1x1_S10x1_0_0_1_1_n_n_wf

abbrev win0_0 : Pipeline.Window sig grid0 :=
  Pipeline.Window.whole (Memref.whole main_v6) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v3) false false (stage0_8 0) (sem0_8 0) (Memref.isWhole_whole _) (hstage0_8 0)

abbrev win0_9 : Pipeline.Window sig grid0 :=
  Pipeline.Window.whole (Memref.whole main_arg9) false false (stage0_9 0) (sem0_9 0) (Memref.isWhole_whole _) (hstage0_9 0)

abbrev win0_10 : Pipeline.Window sig grid0 :=
  Pipeline.Window.whole (Memref.whole main_v4) false false (stage0_10 0) (sem0_10 0) (Memref.isWhole_whole _) (hstage0_10 0)

abbrev win0_11 : Pipeline.Window sig grid0 :=
  Pipeline.Window.whole (Memref.whole main_arg11) false false (stage0_11 0) (sem0_11 0) (Memref.isWhole_whole _) (hstage0_11 0)

abbrev win0_12 : Pipeline.Window sig grid0 :=
  Pipeline.Window.whole (Memref.whole main_v5) false false (stage0_12 0) (sem0_12 0) (Memref.isWhole_whole _) (hstage0_12 0)

abbrev win0_13 : Pipeline.Window sig grid0 :=
  Pipeline.Window.whole (Memref.whole main_v7_0) true false (stage0_13 0) (sem0_13 0) (Memref.isWhole_whole _) (hstage0_13 0)

abbrev win0_14 : Pipeline.Window sig grid0 :=
  Pipeline.Window.whole (Memref.whole main_v7_1) true false (stage0_14 0) (sem0_14 0) (Memref.isWhole_whole _) (hstage0_14 0)

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x36 : Shape := ⟨2, ![16384, 36]⟩
abbrev S36x128 : Shape := ⟨2, ![36, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x9 : Shape := ⟨2, ![64, 9]⟩
abbrev S9 : Shape := ⟨1, ![9]⟩
abbrev S64x1 : Shape := ⟨2, ![64, 1]⟩
abbrev S1 : Shape := ⟨1, ![1]⟩
abbrev S16384x128 : Shape := ⟨2, ![16384, 128]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S16384x9 : Shape := ⟨2, ![16384, 9]⟩
abbrev S1x9 : Shape := ⟨2, ![1, 9]⟩
abbrev S16384x1 : Shape := ⟨2, ![16384, 1]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x36, .f32⟩
  | .hbm, ⟨1, _⟩ => ⟨S36x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x9, .f32⟩
  | .hbm, ⟨8, _⟩ => ⟨S9, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S16384x128, .f32⟩
  | .hbm, ⟨14, _⟩ => ⟨S1x128, .f32⟩
  | .hbm, ⟨15, _⟩ => ⟨S16384x128, .f32⟩
  | .hbm, ⟨16, _⟩ => ⟨S16384x128, .f32⟩
  | .hbm, ⟨17, _⟩ => ⟨S_, .f32⟩
  | .hbm, ⟨18, _⟩ => ⟨S16384x128, .f32⟩
  | .hbm, ⟨19, _⟩ => ⟨S16384x128, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384x64, .f32⟩
  | .hbm, ⟨33, _⟩ => ⟨S16384x64, .f32⟩
  | .hbm, ⟨34, _⟩ => ⟨S16384x9, .f32⟩
  | .hbm, ⟨35, _⟩ => ⟨S1x9, .f32⟩
  | .hbm, ⟨36, _⟩ => ⟨S16384x9, .f32⟩
  | .hbm, ⟨37, _⟩ => ⟨S16384x9, .f32⟩
  | .hbm, ⟨38, _⟩ => ⟨S16384x64, .f32⟩
  | .hbm, ⟨39, _⟩ => ⟨S1x64, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S16384x64, .f32⟩
  | .hbm, ⟨44, _⟩ => ⟨S16384x64, .f32⟩
  | .hbm, ⟨45, _⟩ => ⟨S16384x1, .f32⟩
  | .hbm, ⟨46, _⟩ => ⟨S1x1, .f32⟩
  | .hbm, ⟨47, _⟩ => ⟨S16384x1, .f32⟩
  | .hbm, ⟨48, _⟩ => ⟨S16384x1, .f32⟩
  | _, _ => ⟨S16384x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call3_cst : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S9_S1x9_1 : S9.BroadcastsInDim S1x9 (![1] : Fin 1 → Fin S1x9.rank)
  bcast_S1x9_S16384x9_0_1 : S1x9.BroadcastsInDim S16384x9 (![0, 1] : Fin 2 → Fin S16384x9.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x36_S36x128_S16384x128_1_0_0_1_n_n_wf : DotDims.WF S16384x36 S36x128 S16384x128 [1] [0] [0] [1] [] []
  dot_S16384x128_S128x64_S16384x64_1_0_0_1_n_n_wf : DotDims.WF S16384x128 S128x64 S16384x64 [1] [0] [0] [1] [] []
  dot_S16384x64_S64x64_S16384x64_1_0_0_1_n_n_wf : DotDims.WF S16384x64 S64x64 S16384x64 [1] [0] [0] [1] [] []
  dot_S16384x64_S64x9_S16384x9_1_0_0_1_n_n_wf : DotDims.WF S16384x64 S64x9 S16384x9 [1] [0] [0] [1] [] []
  dot_S16384x64_S64x1_S16384x1_1_0_0_1_n_n_wf : DotDims.WF S16384x64 S64x1 S16384x1 [1] [0] [0] [1] [] []

variable [Facts₀]

def dot_S16384x36_S36x128_S16384x128_1_0_0_1_n_n : DotDims S16384x36 S36x128 S16384x128 where
  lhsContracting := [1]
  rhsContracting := [0]
  lhsNonContracting := [0]
  rhsNonContracting := [1]
  lhsBatch := []
  rhsBatch := []
  wf := dot_S16384x36_S36x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x9_S16384x9_1_0_0_1_n_n : DotDims S16384x64 S64x9 S16384x9 where
  lhsContracting := [1]
  rhsContracting := [0]
  lhsNonContracting := [0]
  rhsNonContracting := [1]
  lhsBatch := []
  rhsBatch := []
  wf := dot_S16384x64_S64x9_S16384x9_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KernelRun.lean ====
/-
  What the idealized kernel's program leaves in its two results, as functions of its thirteen argument arrays.

  The program is: seven host operations (each bias vector of length n laid out as a 1 × n row, and the state matrix
  transposed to 36 × 16384), ONE kernel launch without a grid — every operand's block is its whole array, fetched
  once, and each of the two outputs' blocks is its whole array, written back once —, then two host operations on the
  kernel's outputs (the 9 × 16384 logits transposed to 16384 × 9, the 1 × 16384 values reshaped to 16384 × 1).
  So each output array of the launch is the body's stored value computed from the whole operand arrays
  (`logitsBlock`, `valueBlock`: the body's arithmetic, untouched here), the operands are the arguments under the
  seven layout operations, and the results are the two outputs under the last two.
-/
import proofs.«147933_g49220325212179_cont_8to1c4_445_34_alg».proof.Proof.Gen.KernelIdeal.Frame
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The body's two stored values, of whole operand blocks -/

/-- The 9 × 16384 block the body stores to its first output: rows 0..8 of the last stage, over the hidden activations. -/
def logitsBlock (x0 : Vec F S36x16384 .f32) (x1 : Vec F S36x128 .f32) (x2 : Vec F S1x128 .f32) (x3 : Vec F S128x64 .f32) (x4 : Vec F S1x64 .f32)
    (x5 : Vec F S64x64 .f32) (x6 : Vec F S1x64 .f32) (x7 : Vec F S64x9 .f32) (x8 : Vec F S1x9 .f32) (x9 : Vec F S64x64 .f32)
    (x10 : Vec F S1x64 .f32) (x11 : Vec F S64x1 .f32) (x12 : Vec F S1x1 .f32) : Vec F S9x16384 .f32 :=
  k0_pay2 (k0_pay4 x0 x1 x2 x3 x4 x5 x9 x6 x10) x7 (k0_pay5 (F := F)) x11 x8 x12

/-- The 1 × 16384 block it stores to its second output: row 9 of the same last stage. -/
def valueBlock (x0 : Vec F S36x16384 .f32) (x1 : Vec F S36x128 .f32) (x2 : Vec F S1x128 .f32) (x3 : Vec F S128x64 .f32) (x4 : Vec F S1x64 .f32)
    (x5 : Vec F S64x64 .f32) (x6 : Vec F S1x64 .f32) (x7 : Vec F S64x9 .f32) (x8 : Vec F S1x9 .f32) (x9 : Vec F S64x64 .f32)
    (x10 : Vec F S1x64 .f32) (x11 : Vec F S64x1 .f32) (x12 : Vec F S1x1 .f32) : Vec F S1x16384 .f32 :=
  k0_pay3 (k0_pay4 x0 x1 x2 x3 x4 x5 x9 x6 x10) x7 (k0_pay5 (F := F)) x11 x8 x12

/-- Every load and store of the body is at the origin of its buffer. -/
theorem origin : (![0, 0] : Fin 2 → Nat) = fun _ => 0 := funext fun a => by fin_cases a <;> rfl

/-- One store covering the whole first output buffer leaves its payload there; the loads read whole buffers. -/
theorem out13_eq (x0 : Vec F S36x16384 .f32) (x1 : Vec F S36x128 .f32) (x2 : Vec F S1x128 .f32) (x3 : Vec F S128x64 .f32) (x4 : Vec F S1x64 .f32)
    (x5 : Vec F S64x64 .f32) (x6 : Vec F S1x64 .f32) (x7 : Vec F S64x9 .f32) (x8 : Vec F S1x9 .f32) (x9 : Vec F S64x64 .f32)
    (x10 : Vec F S1x64 .f32) (x11 : Vec F S64x1 .f32) (x12 : Vec F S1x1 .f32) :
    out0_13 x0 x1 x2 x3 x4 x5 x6 x7 x8 x9 x10 x11 x12 = logitsBlock x0 x1 x2 x3 x4 x5 x6 x7 x8 x9 x10 x11 x12 := by
  unfold out0_13
  rw [View.canon_unit_zero origin]
  simp only [View.ld_unit_zero (S := S36x16384) origin, View.ld_unit_zero (S := S36x128) origin, View.ld_unit_zero (S := S1x128) origin,
    View.ld_unit_zero (S := S128x64) origin, View.ld_unit_zero (S := S1x64) origin, View.ld_unit_zero (S := S64x64) origin,
    View.ld_unit_zero (S := S64x9) origin, View.ld_unit_zero (S := S64x1) origin, View.ld_unit_zero (S := S1x9) origin, View.ld_unit_zero (S := S1x1) origin]
  rfl

/-- The same for the second output buffer. -/
theorem out14_eq (x0 : Vec F S36x16384 .f32) (x1 : Vec F S36x128 .f32) (x2 : Vec F S1x128 .f32) (x3 : Vec F S128x64 .f32) (x4 : Vec F S1x64 .f32)
    (x5 : Vec F S64x64 .f32) (x6 : Vec F S1x64 .f32) (x7 : Vec F S64x9 .f32) (x8 : Vec F S1x9 .f32) (x9 : Vec F S64x64 .f32)
    (x10 : Vec F S1x64 .f32) (x11 : Vec F S64x1 .f32) (x12 : Vec F S1x1 .f32) :
    out0_14 x0 x1 x2 x3 x4 x5 x6 x7 x8 x9 x10 x11 x12 = valueBlock x0 x1 x2 x3 x4 x5 x6 x7 x8 x9 x10 x11 x12 := by
  unfold out0_14
  rw [View.canon_unit_zero origin]
  simp only [View.ld_unit_zero (S := S36x16384) origin, View.ld_unit_zero (S := S36x128) origin, View.ld_unit_zero (S := S1x128) origin,
    View.ld_unit_zero (S := S128x64) origin, View.ld_unit_zero (S := S1x64) origin, View.ld_unit_zero (S := S64x64) origin,
    View.ld_unit_zero (S := S64x9) origin, View.ld_unit_zero (S := S64x1) origin, View.ld_unit_zero (S := S1x9) origin, View.ld_unit_zero (S := S1x1) origin]
  rfl

/-! ## Each operand's one block is its whole array

  A block's element at local coordinates `j` sits at block index × block size + `j`; the block index is 0 on both axes. -/

theorem blk0 (c : Dev nD) (t : Fin cfg0.N) : iblk m c 0 t = V m c main_v6 := by
  funext j
  show V m c main_v6 (((cfg0.win 0).blk t).view.emb j) = V m c main_v6 j
  refine congrArg _ (funext fun a => Fin.ext ?_)
  match a with
  | ⟨0, _⟩ => show 0 * 36 + 1 * (j 0).val = (j 0).val; omega
  | ⟨1, _⟩ => show 0 * 16384 + 1 * (j 1).val = (j 1).val; omega
theorem blk1 (c : Dev nD) (t : Fin cfg0.N) : iblk m c 1 t = V m c main_arg1 := by
  funext j
  show V m c main_arg1 (((cfg0.win 1).blk t).view.emb j) = V m c main_arg1 j
  refine congrArg _ (funext fun a => Fin.ext ?_)
  match a with
  | ⟨0, _⟩ => show 0 * 36 + 1 * (j 0).val = (j 0).val; omega
  | ⟨1, _⟩ => show 0 * 128 + 1 * (j 1).val = (j 1).val; omega
theorem blk2 (c : Dev nD) (t : Fin cfg0.N) : iblk m c 2 t = V m c main_v0 := by
  funext j
  show V m c main_v0 (((cfg0.win 2).blk t).view.emb j) = V m c main_v0 j
  refine congrArg _ (funext fun a => Fin.ext ?_)
  match a with
  | ⟨0, _⟩ => show 0 * 1 + 1 * (j 0).val = (j 0).val; omega
  | ⟨1, _⟩ => show 0 * 128 + 1 * (j 1).val = (j 1).val; omega
theorem blk3 (c : Dev nD) (t : Fin cfg0.N) : iblk m c 3 t = V m c main_arg3 := by
  funext j
  show V m c main_arg3 (((cfg0.win 3).blk t).view.emb j) = V m c main_arg3 j
  refine congrArg _ (funext fun a => Fin.ext ?_)
  match a with
  | ⟨0, _⟩ => show 0 * 128 + 1 * (j 0).val = (j 0).val; omega
  | ⟨1, _⟩ => show 0 * 64 + 1 * (j 1).val = (j 1).val; omega
theorem blk4 (c : Dev nD) (t : Fin cfg0.N) : iblk m c 4 t = V m c main_v1 := by
  funext j
  show V m c main_v1 (((cfg0.win 4).blk t).view.emb j) = V m c main_v1 j
  refine congrArg _ (funext fun a => Fin.ext ?_)
  match a with
  | ⟨0, _⟩ => show 0 * 1 + 1 * (j 0).val = (j 0).val; omega
  | ⟨1, _⟩ => show 0 * 64 + 1 * (j 1).val = (j 1).val; omega
theorem blk5 (c : Dev nD) (t : Fin cfg0.N) : iblk m c 5 t = V m c main_arg5 := by
  funext j
  show V m c main_arg5 (((cfg0.win 5).blk t).view.emb j) = V m c main_arg5 j
  refine congrArg _ (funext fun a => Fin.ext ?_)
  match a with
  | ⟨0, _⟩ => show 0 * 64 + 1 * (j 0).val = (j 0).val; omega
  | ⟨1, _⟩ => show 0 * 64 + 1 * (j 1).val = (j 1).val; omega
theorem blk6 (c : Dev nD) (t : Fin cfg0.N) : iblk m c 6 t = V m c main_v2 := by
  funext j
  show V m c main_v2 (((cfg0.win 6).blk t).view.emb j) = V m c main_v2 j
  refine congrArg _ (funext fun a => Fin.ext ?_)
  match a with
  | ⟨0, _⟩ => show 0 * 1 + 1 * (j 0).val = (j 0).val; omega
  | ⟨1, _⟩ => show 0 * 64 + 1 * (j 1).val = (j 1).val; omega
theorem blk7 (c : Dev nD) (t : Fin cfg0.N) : iblk m c 7 t = V m c main_arg7 := by
  funext j
  show V m c main_arg7 (((cfg0.win 7).blk t).view.emb j) = V m c main_arg7 j
  refine congrArg _ (funext fun a => Fin.ext ?_)
  match a with
  | ⟨0, _⟩ => show 0 * 64 + 1 * (j 0).val = (j 0).val; omega
  | ⟨1, _⟩ => show 0 * 9 + 1 * (j 1).val = (j 1).val; omega
theorem blk8 (c : Dev nD) (t : Fin cfg0.N) : iblk m c 8 t = V m c main_v3 := by
  funext j
  show V m c main_v3 (((cfg0.win 8).blk t).view.emb j) = V m c main_v3 j
  refine congrArg _ (funext fun a => Fin.ext ?_)
  match a with
  | ⟨0, _⟩ => show 0 * 1 + 1 * (j 0).val = (j 0).val; omega
  | ⟨1, _⟩ => show 0 * 9 + 1 * (j 1).val = (j 1).val; omega
theorem blk9 (c : Dev nD) (t : Fin cfg0.N) : iblk m c 9 t = V m c main_arg9 := by
  funext j
  show V m c main_arg9 (((cfg0.win 9).blk t).view.emb j) = V m c main_arg9 j
  refine congrArg _ (funext fun a => Fin.ext ?_)
  match a with
  | ⟨0, _⟩ => show 0 * 64 + 1 * (j 0).val = (j 0).val; omega
  | ⟨1, _⟩ => show 0 * 64 + 1 * (j 1).val = (j 1).val; omega
theorem blk10 (c : Dev nD) (t : Fin cfg0.N) : iblk m c 10 t = V m c main_v4 := by
  funext j
  show V m c main_v4 (((cfg0.win 10).blk t).view.emb j) = V m c main_v4 j
  refine congrArg _ (funext fun a => Fin.ext ?_)
  match a with
  | ⟨0, _⟩ => show 0 * 1 + 1 * (j 0).val = (j 0).val; omega
  | ⟨1, _⟩ => show 0 * 64 + 1 * (j 1).val = (j 1).val; omega
theorem blk11 (c : Dev nD) (t : Fin cfg0.N) : iblk m c 11 t = V m c main_arg11 := by
  funext j
  show V m c main_arg11 (((cfg0.win 11).blk t).view.emb j) = V m c main_arg11 j
  refine congrArg _ (funext fun a => Fin.ext ?_)
  match a with
  | ⟨0, _⟩ => show 0 * 64 + 1 * (j 0).val = (j 0).val; omega
  | ⟨1, _⟩ => show 0 * 1 + 1 * (j 1).val = (j 1).val; omega
theorem blk12 (c : Dev nD) (t : Fin cfg0.N) : iblk m c 12 t = V m c main_v5 := by
  funext j
  show V m c main_v5 (((cfg0.win 12).blk t).view.emb j) = V m c main_v5 j
  refine congrArg _ (funext fun a => Fin.ext ?_)
  match a with
  | ⟨0, _⟩ => show 0 * 1 + 1 * (j 0).val = (j 0).val; omega
  | ⟨1, _⟩ => show 0 * 1 + 1 * (j 1).val = (j 1).val; omega

/-! ## Each output array after the launch is the stored block -/

/-- What the one point writes back to the first output is the stored block read through the whole-array window. -/
theorem flushed13 (c : Dev nD) (t : Fin cfg0.N) (R : Vec F S9x16384 .f32) (h : (dats m 0 c).after 13 t = R) :
    (dats m 0 c).flushed 13 t = ((cfg0.win 13).blk t).view.read (Elt F) R := by
  show (cfg0.win 13).cut (grid0.coords t) ((dats m 0 c).after 13 t) = _
  rw [h]
  funext j
  show R j = R (((cfg0.win 13).blk t).view.emb j)
  refine congrArg R (funext fun a => Fin.ext ?_)
  match a with
  | ⟨0, _⟩ => show (j 0).val = 0 * 9 + 1 * (j 0).val; omega
  | ⟨1, _⟩ => show (j 1).val = 0 * 16384 + 1 * (j 1).val; omega

theorem flushed14 (c : Dev nD) (t : Fin cfg0.N) (R : Vec F S1x16384 .f32) (h : (dats m 0 c).after 14 t = R) :
    (dats m 0 c).flushed 14 t = ((cfg0.win 14).blk t).view.read (Elt F) R := by
  show (cfg0.win 14).cut (grid0.coords t) ((dats m 0 c).after 14 t) = _
  rw [h]
  funext j
  show R j = R (((cfg0.win 14).blk t).view.emb j)
  refine congrArg R (funext fun a => Fin.ext ?_)
  match a with
  | ⟨0, _⟩ => show (j 0).val = 0 * 1 + 1 * (j 0).val; omega
  | ⟨1, _⟩ => show (j 1).val = 0 * 16384 + 1 * (j 1).val; omega

/-- Every index of the first output array lies in the one point's block. -/
theorem cover13 (i : S9x16384.Idx) : ∃ t : Fin cfg0.N, (cfg0.win 13).flush t = true ∧ i ∈ ((cfg0.win 13).blk t).view.set := by
  refine ⟨t0_0, flush0_13 _, ?_⟩
  show i ∈ ((View.whole main_v7_0).slice (win0_13.rect t0_0)).set
  rw [View.set_slice_whole, Rect.mem_set_unit]
  intro a
  match a with
  | ⟨0, _⟩ => show 0 * 9 ≤ (i 0).val ∧ (i 0).val < 0 * 9 + 9; have h0 : (i 0).val < 9 := (i 0).isLt; omega
  | ⟨1, _⟩ => show 0 * 16384 ≤ (i 1).val ∧ (i 1).val < 0 * 16384 + 16384; have h1 : (i 1).val < 16384 := (i 1).isLt; omega

theorem cover14 (i : S1x16384.Idx) : ∃ t : Fin cfg0.N, (cfg0.win 14).flush t = true ∧ i ∈ ((cfg0.win 14).blk t).view.set := by
  refine ⟨t0_0, flush0_14 _, ?_⟩
  show i ∈ ((View.whole main_v7_1).slice (win0_14.rect t0_0)).set
  rw [View.set_slice_whole, Rect.mem_set_unit]
  intro a
  match a with
  | ⟨0, _⟩ => show 0 * 1 ≤ (i 0).val ∧ (i 0).val < 0 * 1 + 1; have h0 : (i 0).val < 1 := (i 0).isLt; omega
  | ⟨1, _⟩ => show 0 * 16384 ≤ (i 1).val ∧ (i 1).val < 0 * 16384 + 16384; have h1 : (i 1).val < 16384 := (i 1).isLt; omega

/-- What the body leaves in the first output's buffer, over the operand arrays as the launch finds them. -/
theorem after13 (c : Dev nD) (t : Fin cfg0.N) :
    (dats m 0 c).after 13 t = logitsBlock (V m c main_v6) (V m c main_arg1) (V m c main_v0) (V m c main_arg3) (V m c main_v1) (V m c main_arg5) (V m c main_v2) (V m c main_arg7) (V m c main_v3) (V m c main_arg9) (V m c main_v4) (V m c main_arg11) (V m c main_v5) := by
  rw [after0_13, blk0 m c t, blk1 m c t, blk2 m c t, blk3 m c t, blk4 m c t, blk5 m c t, blk6 m c t, blk7 m c t, blk8 m c t, blk9 m c t, blk10 m c t, blk11 m c t, blk12 m c t, out13_eq]

theorem after14 (c : Dev nD) (t : Fin cfg0.N) :
    (dats m 0 c).after 14 t = valueBlock (V m c main_v6) (V m c main_arg1) (V m c main_v0) (V m c main_arg3) (V m c main_v1) (V m c main_arg5) (V m c main_v2) (V m c main_arg7) (V m c main_v3) (V m c main_arg9) (V m c main_v4) (V m c main_arg11) (V m c main_v5) := by
  rw [after0_14, blk0 m c t, blk1 m c t, blk2 m c t, blk3 m c t, blk4 m c t, blk5 m c t, blk6 m c t, blk7 m c t, blk8 m c t, blk9 m c t, blk10 m c t, blk11 m c t, blk12 m c t, out14_eq]

/-- The first output array after the launch. -/
theorem final13 (c : Dev nD) :
    (dats m 0 c).arrAt 13 cfg0.N = logitsBlock (V m c main_v6) (V m c main_arg1) (V m c main_v0) (V m c main_arg3) (V m c main_v1) (V m c main_arg5) (V m c main_v2) (V m c main_arg7) (V m c main_v3) (V m c main_arg9) (V m c main_v4) (V m c main_arg11) (V m c main_v5) :=
  (dats m 0 c).arrAt_eq_of_cover 13 _ (fun t _ => flushed13 m c t _ (after13 m c t)) cover13

/-- The second output array after the launch. -/
theorem final14 (c : Dev nD) :
    (dats m 0 c).arrAt 14 cfg0.N = valueBlock (V m c main_v6) (V m c main_arg1) (V m c main_v0) (V m c main_arg3) (V m c main_v1) (V m c main_arg5) (V m c main_v2) (V m c main_arg7) (V m c main_v3) (V m c main_arg9) (V m c main_v4) (V m c main_arg11) (V m c main_v5) :=
  (dats m 0 c).arrAt_eq_of_cover 14 _ (fun t _ => flushed14 m c t _ (after14 m c t)) cover14

/-! ## The operands the launch finds are the arguments under the seven layout operations -/

theorem V_main_v6 (c : Dev nD) : (V m c main_v6 : S36x16384.Idx → Elt F .f32)
    = transpose S36x16384 [1, 0] (m ((c : Thread nD τ).loc main_arg0)) transposes_S16384x36_S36x16384_1_0 := by
  show StableHlo.after hostOps0 (fun b => m (c, b)) (Proc.devRef .tc main_v6) = _
  after_results
theorem V_main_v0 (c : Dev nD) : (V m c main_v0 : S1x128.Idx → Elt F .f32)
    = broadcastInDim S1x128 ![1] bcast_S128_S1x128_1 (m ((c : Thread nD τ).loc main_arg2)) := by
  show StableHlo.after hostOps0 (fun b => m (c, b)) (Proc.devRef .tc main_v0) = _
  after_results
theorem V_main_v1 (c : Dev nD) : (V m c main_v1 : S1x64.Idx → Elt F .f32)
    = broadcastInDim S1x64 ![1] bcast_S64_S1x64_1 (m ((c : Thread nD τ).loc main_arg4)) := by
  show StableHlo.after hostOps0 (fun b => m (c, b)) (Proc.devRef .tc main_v1) = _
  after_results
theorem V_main_v2 (c : Dev nD) : (V m c main_v2 : S1x64.Idx → Elt F .f32)
    = broadcastInDim S1x64 ![1] bcast_S64_S1x64_1 (m ((c : Thread nD τ).loc main_arg6)) := by
  show StableHlo.after hostOps0 (fun b => m (c, b)) (Proc.devRef .tc main_v2) = _
  after_results
theorem V_main_v3 (c : Dev nD) : (V m c main_v3 : S1x9.Idx → Elt F .f32)
    = broadcastInDim S1x9 ![1] bcast_S9_S1x9_1 (m ((c : Thread nD τ).loc main_arg8)) := by
  show StableHlo.after hostOps0 (fun b => m (c, b)) (Proc.devRef .tc main_v3) = _
  after_results
theorem V_main_v4 (c : Dev nD) : (V m c main_v4 : S1x64.Idx → Elt F .f32)
    = broadcastInDim S1x64 ![1] bcast_S64_S1x64_1 (m ((c : Thread nD τ).loc main_arg10)) := by
  show StableHlo.after hostOps0 (fun b => m (c, b)) (Proc.devRef .tc main_v4) = _
  after_results
theorem V_main_v5 (c : Dev nD) : (V m c main_v5 : S1x1.Idx → Elt F .f32)
    = broadcastInDim S1x1 ![1] bcast_S1_S1x1_1 (m ((c : Thread nD τ).loc main_arg12)) := by
  show StableHlo.after hostOps0 (fun b => m (c, b)) (Proc.devRef .tc main_v5) = _
  after_results

/-! ## The two results are the output arrays under the last two layout operations -/

theorem tail_v8 (c : Dev nD) : (Pipeline.afterTail₀ cfgs (dats m) 0 (V0 m) [hostOps1] c main_v8 : S16384x9.Idx → Elt F .f32)
    = transpose S16384x9 [1, 0] ((dats m 0 c).arrAt 13 cfg0.N) transposes_S9x16384_S16384x9_1_0 := by
  unfold Pipeline.afterTail₀
  show StableHlo.after hostOps1 _ (Proc.devRef .tc main_v8) = _
  after_results
  rw [Pipeline.withArrays_arr spec0 launch0.win.arr_inj c _ _ 13]

theorem tail_v9 (c : Dev nD) : (Pipeline.afterTail₀ cfgs (dats m) 0 (V0 m) [hostOps1] c main_v9 : S16384x1.Idx → Elt F .f32)
    = shapeCast S16384x1 ((dats m 0 c).arrAt 14 cfg0.N) shapeCasts_S1x16384_S16384x1 := by
  unfold Pipeline.afterTail₀
  show StableHlo.after hostOps1 _ (Proc.devRef .tc main_v9) = _
  after_results
  rw [Pipeline.withArrays_arr spec0 launch0.win.arr_inj c _ _ 14]
  rfl

/-! ## The results as functions of the arguments, and the run -/

/-- The program's first result, 16384 × 9, from the argument arrays. -/
def logitsOf (a0 : Vec F S16384x36 .f32) (a1 : Vec F S36x128 .f32) (a2 : Vec F S128 .f32) (a3 : Vec F S128x64 .f32) (a4 : Vec F S64 .f32)
    (a5 : Vec F S64x64 .f32) (a6 : Vec F S64 .f32) (a7 : Vec F S64x9 .f32) (a8 : Vec F S9 .f32) (a9 : Vec F S64x64 .f32)
    (a10 : Vec F S64 .f32) (a11 : Vec F S64x1 .f32) (a12 : Vec F S1 .f32) : Vec F S16384x9 .f32 :=
  transpose S16384x9 [1, 0] (logitsBlock (transpose S36x16384 [1, 0] a0 transposes_S16384x36_S36x16384_1_0) a1 (broadcastInDim S1x128 ![1] bcast_S128_S1x128_1 a2) a3 (broadcastInDim S1x64 ![1] bcast_S64_S1x64_1 a4)
      a5 (broadcastInDim S1x64 ![1] bcast_S64_S1x64_1 a6) a7 (broadcastInDim S1x9 ![1] bcast_S9_S1x9_1 a8) a9 (broadcastInDim S1x64 ![1] bcast_S64_S1x64_1 a10) a11 (broadcastInDim S1x1 ![1] bcast_S1_S1x1_1 a12)) transposes_S9x16384_S16384x9_1_0

/-- Its second result, 16384 × 1. -/
def valueOf (a0 : Vec F S16384x36 .f32) (a1 : Vec F S36x128 .f32) (a2 : Vec F S128 .f32) (a3 : Vec F S128x64 .f32) (a4 : Vec F S64 .f32)
    (a5 : Vec F S64x64 .f32) (a6 : Vec F S64 .f32) (a7 : Vec F S64x9 .f32) (a8 : Vec F S9 .f32) (a9 : Vec F S64x64 .f32)
    (a10 : Vec F S64 .f32) (a11 : Vec F S64x1 .f32) (a12 : Vec F S1 .f32) : Vec F S16384x1 .f32 :=
  shapeCast S16384x1 (valueBlock (transpose S36x16384 [1, 0] a0 transposes_S16384x36_S36x16384_1_0) a1 (broadcastInDim S1x128 ![1] bcast_S128_S1x128_1 a2) a3 (broadcastInDim S1x64 ![1] bcast_S64_S1x64_1 a4)
      a5 (broadcastInDim S1x64 ![1] bcast_S64_S1x64_1 a6) a7 (broadcastInDim S1x9 ![1] bcast_S9_S1x9_1 a8) a9 (broadcastInDim S1x64 ![1] bcast_S64_S1x64_1 a10) a11 (broadcastInDim S1x1 ![1] bcast_S1_S1x1_1 a12)) shapeCasts_S1x16384_S16384x1

theorem result_v8 (c : Dev nD) : (Pipeline.afterTail₀ cfgs (dats m) 0 (V0 m) [hostOps1] c main_v8 : S16384x9.Idx → Elt F .f32)
    = logitsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [tail_v8, final13, V_main_v6, V_main_v0, V_main_v1, V_main_v2, V_main_v3, V_main_v4, V_main_v5,
    V_main_arg1, V_main_arg3, V_main_arg5, V_main_arg7, V_main_arg9, V_main_arg11]
  rfl

theorem result_v9 (c : Dev nD) : (Pipeline.afterTail₀ cfgs (dats m) 0 (V0 m) [hostOps1] c main_v9 : S16384x1.Idx → Elt F .f32)
    = valueOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [tail_v9, final14, V_main_v6, V_main_v0, V_main_v1, V_main_v2, V_main_v3, V_main_v4, V_main_v5,
    V_main_arg1, V_main_arg3, V_main_arg5, V_main_arg7, V_main_arg9, V_main_arg11]
  rfl

/-- Every weakly fair execution of the program terminates without a fault, with its two results at `logitsOf` and
    `valueOf` of the argument arrays, and the argument arrays as they were. -/
theorem run : θ_run defs (onTc (τ := τ) (main (F := F))) ⟨m, fun _ => 0, ρ⟩ (fun r => ∀ c : Dev nD,
      r.2.mem ((c.tc : Thread nD τ).loc main_v8) = logitsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v9) = valueOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      ((h c).2 main_v8 (Pipeline.mem_restRefs_of main_v8 (by decide) (by decide))).trans (result_v8 m c),
      ((h c).2 main_v9 (Pipeline.mem_restRefs_of main_v9 (by decide) (by decide))).trans (result_v9 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c)⟩) (run_main m ρ)

end Cert.KernelIdeal.Whole

end
-- ==== Proof.Net.lean ====
/-
  The network both programs compute, as functions on the extended reals.

  A batch of 16384 states of 36 features goes through two encoder layers (36 → 128 → 64, each an affine map followed by
  the positive part) and then through two heads, each a 64 → 64 layer with positive part followed by an affine map: the
  actor head ends in 9 logits, the critic head in 1 value. Everything is written over coordinates: `lin x W β b j` is
  row `b` of `x` against column `j` of `W`, plus the bias `β j`; `act` is its positive part. Sums are finite sums in
  the commutative monoid of the extended reals, so they may be re-indexed and split freely; no law that needs
  finiteness (distributivity, cancellation) is used anywhere.
-/
import Idealize.ShloMosaic.PureOps.Ideal
import Idealize.ShloMosaic.Lib.ValueIdx

noncomputable section

namespace Cert.Mlp

open Idealize.ShloMosaic Idealize.ShloMosaic.ValueIdx

/-- An `n0 × n1` matrix of extended reals, indexed by the rank-2 shape's indices. -/
abbrev Mat (n0 n1 : Nat) : Type := (⟨2, ![n0, n1]⟩ : Shape).Idx → EReal
/-- A vector of `n` extended reals, indexed by the rank-1 shape's indices. -/
abbrev Row (n : Nat) : Type := (⟨1, ![n]⟩ : Shape).Idx → EReal

/-- An affine layer at one output coordinate: `∑ₖ x[b,k] · W[k,j] + β[j]`. -/
def lin {B K N : Nat} (x : Fin B → Fin K → EReal) (W : Mat K N) (β : Fin N → EReal) (b : Fin B) (j : Fin N) : EReal :=
  ∑ k : Fin K, x b k * W (ix2 k j) + β j

/-- The same followed by the positive part `max · 0`. -/
def act {B K N : Nat} (x : Fin B → Fin K → EReal) (W : Mat K N) (β : Fin N → EReal) (b : Fin B) (j : Fin N) : EReal :=
  max (lin x W β b j) 0

/-- The encoder: two activated layers, 36 → 128 → 64. -/
def enc (x : Fin 16384 → Fin 36 → EReal) (W1 : Mat 36 128) (β1 : Fin 128 → EReal) (W2 : Mat 128 64) (β2 : Fin 64 → EReal) :
    Fin 16384 → Fin 64 → EReal :=
  act (act x W1 β1) W2 β2

/-- A head: an activated 64 → 64 layer on the encoding, then an affine map to `n` outputs. -/
def head {n : Nat} (e : Fin 16384 → Fin 64 → EReal) (Wh : Mat 64 64) (βh : Fin 64 → EReal) (Wo : Mat 64 n) (βo : Fin n → EReal) :
    Fin 16384 → Fin n → EReal :=
  lin (act e Wh βh) Wo βo

/-- The logits as an array: the actor head of the encoding of the states. -/
def logits (a0 : Mat 16384 36) (a1 : Mat 36 128) (a2 : Row 128) (a3 : Mat 128 64) (a4 : Row 64)
    (a5 : Mat 64 64) (a6 : Row 64) (a7 : Mat 64 9) (a8 : Row 9) : Mat 16384 9 := fun i =>
  head (enc (fun b k => a0 (ix2 b k)) a1 (fun j => a2 (ix1 j)) a3 (fun j => a4 (ix1 j)))
    a5 (fun j => a6 (ix1 j)) a7 (fun j => a8 (ix1 j)) (i 0) (i 1)

/-- The state value as an array: the critic head of the same encoding. -/
def value (a0 : Mat 16384 36) (a1 : Mat 36 128) (a2 : Row 128) (a3 : Mat 128 64) (a4 : Row 64)
    (a9 : Mat 64 64) (a10 : Row 64) (a11 : Mat 64 1) (a12 : Row 1) : Mat 16384 1 := fun i =>
  head (enc (fun b k => a0 (ix2 b k)) a1 (fun j => a2 (ix1 j)) a3 (fun j => a4 (ix1 j)))
    a9 (fun j => a10 (ix1 j)) a11 (fun j => a12 (ix1 j)) (i 0) (i 1)

/-- A sum over 128 terms is the sum of its first 64 and its last 64. -/
theorem sum_halves (f : Fin 128 → EReal) :
    ∑ k : Fin 128, f k
      = ∑ k : Fin 64, f ⟨k.val, by have := k.isLt; omega⟩ + ∑ k : Fin 64, f ⟨64 + k.val, by have := k.isLt; omega⟩ :=
  Fin.sum_univ_add (a := 64) (b := 64) (f := f)

end Cert.Mlp

end
-- ==== Proof.RefNet.lean ====
/-
  The reference program is the network of the specification.

  The reference computes, one array operation at a time, four activated affine layers and two final affine maps. Read at
  one output coordinate, a contraction of a matrix of activations with a weight matrix is the finite sum over the
  contracted coordinate of the products, a bias broadcast along the batch is the bias at the column, and the maximum with
  a broadcast zero is the positive part. So each activated stage of the reference, at the coordinates `(b, j)`, is the
  specification's `act` of the stage before it, and the two results are the specification's `logits` and `value`.
  The proof goes stage by stage from the inputs: each stage is read at an index built from its two coordinates, the index
  maps of the contraction and of the broadcasts are identified with the indices `(b, k)`, `(k, j)` and `(j)`, and the
  earlier stage is rewritten under the sum.
-/
import proofs.«147933_g49220325212179_cont_8to1c4_445_34_alg».proof.Proof.Net
import proofs.«147933_g49220325212179_cont_8to1c4_445_34_alg».proof.Proof.Gen.ReferenceIdeal.Read
import Idealize.ShloMosaic.Lib.Pipeline.Value
import Idealize.ShloMosaic.Lib.ValueIdx
import Idealize.ShloMosaic.PureOps.Ideal.Laws

noncomputable section

namespace Cert.Mlp

open Idealize.ShloMosaic Idealize.ShloMosaic.ValueIdx
open Cert.ReferenceIdeal

/-- The first activated layer of the reference, at the coordinates `(b, j)`: the positive part of row `b` of the
    states against column `j` of the first weights, plus the first bias at `j`. -/
theorem ref_layer1 (a0 : Mat 16384 36) (a1 : Mat 36 128) (a2 : Row 128) (b : Fin 16384) (j : Fin 128) :
    Read.val_main_v4 (F := Ideal) a0 a1 a2 (ix2 b j)
      = act (fun b k => a0 (ix2 b k)) a1 (fun j => a2 (ix1 j)) b j := by
  rw [Read.val_main_v4_apply, Read.val_main_v3_apply, Read.val_main_v0_apply, Read.val_main_v2_apply,
    Read.val_main_v1_apply, Read.val_main_call0_v0_apply, Read.val_main_call0_cst_apply]
  simp only [Ideal.maximumf_def, Ideal.addf_def, Ideal.ofBits_def, Ideal.ofBits_zero_f32]
  unfold act lin
  have hb : Read.idx_main_v1 (Read.idx_main_v2 (ix2 b j)) = ix1 j := by
    funext a; match a with | ⟨0, _⟩ => rfl
  have hl : ∀ k : Fin 36, Read.lidx_main_v0 (ix2 b j) k = ix2 b k := fun k => by
    funext a; match a with | ⟨0, _⟩ => rfl | ⟨1, _⟩ => rfl
  have hr : ∀ k : Fin 36, Read.ridx_main_v0 (ix2 b j) k = ix2 k j := fun k => by
    funext a; match a with | ⟨0, _⟩ => rfl | ⟨1, _⟩ => rfl
  rw [hb]
  refine congrArg (fun s => max (s + a2 (ix1 j)) 0) ?_
  exact Finset.sum_congr rfl fun k _ => by rw [hl, hr]

/-- The reference's encoding at the coordinates `(b, j)`: the second activated layer on top of the first. -/
theorem ref_enc (a0 : Mat 16384 36) (a1 : Mat 36 128) (a2 : Row 128) (a3 : Mat 128 64) (a4 : Row 64)
    (b : Fin 16384) (j : Fin 64) :
    Read.val_main_v9 (F := Ideal) a0 a1 a2 a3 a4 (ix2 b j)
      = enc (fun b k => a0 (ix2 b k)) a1 (fun j => a2 (ix1 j)) a3 (fun j => a4 (ix1 j)) b j := by
  rw [Read.val_main_v9_apply, Read.val_main_v8_apply, Read.val_main_v5_apply, Read.val_main_v7_apply,
    Read.val_main_v6_apply, Read.val_main_call1_v0_apply, Read.val_main_call1_cst_apply]
  simp only [Ideal.maximumf_def, Ideal.addf_def, Ideal.ofBits_def, Ideal.ofBits_zero_f32]
  have hb : Read.idx_main_v6 (Read.idx_main_v7 (ix2 b j)) = ix1 j := by
    funext a; match a with | ⟨0, _⟩ => rfl
  have hl : ∀ k : Fin 128, Read.lidx_main_v5 (ix2 b j) k = ix2 b k := fun k => by
    funext a; match a with | ⟨0, _⟩ => rfl | ⟨1, _⟩ => rfl
  have hr : ∀ k : Fin 128, Read.ridx_main_v5 (ix2 b j) k = ix2 k j := fun k => by
    funext a; match a with | ⟨0, _⟩ => rfl | ⟨1, _⟩ => rfl
  rw [hb]
  show max (_ + a4 (ix1 j)) 0
    = max (∑ k : Fin 128, act (fun b k => a0 (ix2 b k)) a1 (fun j => a2 (ix1 j)) b k * a3 (ix2 k j) + a4 (ix1 j)) 0
  refine congrArg (fun s => max (s + a4 (ix1 j)) 0) ?_
  exact Finset.sum_congr rfl fun k _ => by rw [hl, hr, ref_layer1]

/-- The hidden layer of the actor head in the reference, at `(b, j)`: an activated layer on the encoding. -/
theorem ref_actor_hidden (a0 : Mat 16384 36) (a1 : Mat 36 128) (a2 : Row 128) (a3 : Mat 128 64) (a4 : Row 64)
    (a5 : Mat 64 64) (a6 : Row 64) (b : Fin 16384) (j : Fin 64) :
    Read.val_main_v14 (F := Ideal) a0 a1 a2 a3 a4 a5 a6 (ix2 b j)
      = act (enc (fun b k => a0 (ix2 b k)) a1 (fun j => a2 (ix1 j)) a3 (fun j => a4 (ix1 j)))
          a5 (fun j => a6 (ix1 j)) b j := by
  rw [Read.val_main_v14_apply, Read.val_main_v13_apply, Read.val_main_v10_apply, Read.val_main_v12_apply,
    Read.val_main_v11_apply, Read.val_main_call2_v0_apply, Read.val_main_call2_cst_apply]
  simp only [Ideal.maximumf_def, Ideal.addf_def, Ideal.ofBits_def, Ideal.ofBits_zero_f32]
  have hb : Read.idx_main_v11 (Read.idx_main_v12 (ix2 b j)) = ix1 j := by
    funext a; match a with | ⟨0, _⟩ => rfl
  have hl : ∀ k : Fin 64, Read.lidx_main_v10 (ix2 b j) k = ix2 b k := fun k => by
    funext a; match a with | ⟨0, _⟩ => rfl | ⟨1, _⟩ => rfl
  have hr : ∀ k : Fin 64, Read.ridx_main_v10 (ix2 b j) k = ix2 k j := fun k => by
    funext a; match a with | ⟨0, _⟩ => rfl | ⟨1, _⟩ => rfl
  rw [hb]
  show max (_ + a6 (ix1 j)) 0
    = max (∑ k : Fin 64, enc (fun b k => a0 (ix2 b k)) a1 (fun j => a2 (ix1 j)) a3 (fun j => a4 (ix1 j)) b k
        * a5 (ix2 k j) + a6 (ix1 j)) 0
  refine congrArg (fun s => max (s + a6 (ix1 j)) 0) ?_
  exact Finset.sum_congr rfl fun k _ => by rw [hl, hr, ref_enc]

/-- The hidden layer of the critic head in the reference, at `(b, j)`: an activated layer on the same encoding. -/
theorem ref_critic_hidden (a0 : Mat 16384 36) (a1 : Mat 36 128) (a2 : Row 128) (a3 : Mat 128 64) (a4 : Row 64)
    (a9 : Mat 64 64) (a10 : Row 64) (b : Fin 16384) (j : Fin 64) :
    Read.val_main_v23 (F := Ideal) a0 a1 a2 a3 a4 a9 a10 (ix2 b j)
      = act (enc (fun b k => a0 (ix2 b k)) a1 (fun j => a2 (ix1 j)) a3 (fun j => a4 (ix1 j)))
          a9 (fun j => a10 (ix1 j)) b j := by
  rw [Read.val_main_v23_apply, Read.val_main_v22_apply, Read.val_main_v19_apply, Read.val_main_v21_apply,
    Read.val_main_v20_apply, Read.val_main_call3_v0_apply, Read.val_main_call3_cst_apply]
  simp only [Ideal.maximumf_def, Ideal.addf_def, Ideal.ofBits_def, Ideal.ofBits_zero_f32]
  have hb : Read.idx_main_v20 (Read.idx_main_v21 (ix2 b j)) = ix1 j := by
    funext a; match a with | ⟨0, _⟩ => rfl
  have hl : ∀ k : Fin 64, Read.lidx_main_v19 (ix2 b j) k = ix2 b k := fun k => by
    funext a; match a with | ⟨0, _⟩ => rfl | ⟨1, _⟩ => rfl
  have hr : ∀ k : Fin 64, Read.ridx_main_v19 (ix2 b j) k = ix2 k j := fun k => by
    funext a; match a with | ⟨0, _⟩ => rfl | ⟨1, _⟩ => rfl
  rw [hb]
  show max (_ + a10 (ix1 j)) 0
    = max (∑ k : Fin 64, enc (fun b k => a0 (ix2 b k)) a1 (fun j => a2 (ix1 j)) a3 (fun j => a4 (ix1 j)) b k
        * a9 (ix2 k j) + a10 (ix1 j)) 0
  refine congrArg (fun s => max (s + a10 (ix1 j)) 0) ?_
  exact Finset.sum_congr rfl fun k _ => by rw [hl, hr, ref_enc]

/-- The reference's first result is the array of logits: the final affine map of the actor head, with no positive part. -/
theorem ref_logits (a0 : Mat 16384 36) (a1 : Mat 36 128) (a2 : Row 128) (a3 : Mat 128 64) (a4 : Row 64)
    (a5 : Mat 64 64) (a6 : Row 64) (a7 : Mat 64 9) (a8 : Row 9) :
    Cert.ReferenceIdeal.Read.val_main_v18 (F := Ideal) a0 a1 a2 a3 a4 a5 a6 a7 a8 = logits a0 a1 a2 a3 a4 a5 a6 a7 a8 := by
  funext i
  obtain ⟨b, j, rfl⟩ : ∃ (b : Fin 16384) (j : Fin 9), i = ix2 b j := ⟨i 0, i 1, eq_ix2 i⟩
  rw [Read.val_main_v18_apply, Read.val_main_v15_apply, Read.val_main_v17_apply, Read.val_main_v16_apply]
  simp only [Ideal.addf_def]
  have hb : Read.idx_main_v16 (Read.idx_main_v17 (ix2 b j)) = ix1 j := by
    funext a; match a with | ⟨0, _⟩ => rfl
  have hl : ∀ k : Fin 64, Read.lidx_main_v15 (ix2 b j) k = ix2 b k := fun k => by
    funext a; match a with | ⟨0, _⟩ => rfl | ⟨1, _⟩ => rfl
  have hr : ∀ k : Fin 64, Read.ridx_main_v15 (ix2 b j) k = ix2 k j := fun k => by
    funext a; match a with | ⟨0, _⟩ => rfl | ⟨1, _⟩ => rfl
  rw [hb]
  show _ + a8 (ix1 j)
    = ∑ k : Fin 64, act (enc (fun b k => a0 (ix2 b k)) a1 (fun j => a2 (ix1 j)) a3 (fun j => a4 (ix1 j)))
        a5 (fun j => a6 (ix1 j)) b k * a7 (ix2 k j) + a8 (ix1 j)
  refine congrArg (fun s => s + a8 (ix1 j)) ?_
  exact Finset.sum_congr rfl fun k _ => by rw [hl, hr, ref_actor_hidden]

/-- The reference's second result is the array of state values: the final affine map of the critic head. Its one column
    has a single index, so the bias broadcast from the one-element vector is the bias at that index. -/
theorem ref_value (a0 : Mat 16384 36) (a1 : Mat 36 128) (a2 : Row 128) (a3 : Mat 128 64) (a4 : Row 64)
    (a9 : Mat 64 64) (a10 : Row 64) (a11 : Mat 64 1) (a12 : Row 1) :
    Cert.ReferenceIdeal.Read.val_main_v27 (F := Ideal) a0 a1 a2 a3 a4 a9 a10 a11 a12 = value a0 a1 a2 a3 a4 a9 a10 a11 a12 := by
  funext i
  obtain ⟨b, j, rfl⟩ : ∃ (b : Fin 16384) (j : Fin 1), i = ix2 b j := ⟨i 0, i 1, eq_ix2 i⟩
  rw [Read.val_main_v27_apply, Read.val_main_v24_apply, Read.val_main_v26_apply, Read.val_main_v25_apply]
  simp only [Ideal.addf_def]
  have hb : Read.idx_main_v25 (Read.idx_main_v26 (ix2 b j)) = ix1 j := by
    funext a; match a with | ⟨0, _⟩ => exact Fin.ext (show (0 : Nat) = j.val by have := j.isLt; omega)
  have hl : ∀ k : Fin 64, Read.lidx_main_v24 (ix2 b j) k = ix2 b k := fun k => by
    funext a; match a with | ⟨0, _⟩ => rfl | ⟨1, _⟩ => rfl
  have hr : ∀ k : Fin 64, Read.ridx_main_v24 (ix2 b j) k = ix2 k j := fun k => by
    funext a; match a with | ⟨0, _⟩ => rfl | ⟨1, _⟩ => rfl
  rw [hb]
  show _ + a12 (ix1 j)
    = ∑ k : Fin 64, act (enc (fun b k => a0 (ix2 b k)) a1 (fun j => a2 (ix1 j)) a3 (fun j => a4 (ix1 j)))
        a9 (fun j => a10 (ix1 j)) b k * a11 (ix2 k j) + a12 (ix1 j)
  refine congrArg (fun s => s + a12 (ix1 j)) ?_
  exact Finset.sum_congr rfl fun k _ => by rw [hl, hr, ref_critic_hidden]

end Cert.Mlp

end
-- ==== Proof.Hidden.lean ====
/-
  The first three layers of the kernel's body, read one coordinate at a time.

  The body multiplies the transposed state matrix (36 × 16384, contracted along its FIRST axis) by the first weight,
  adds the first bias (a 1 × 128 row repeated over the batch) and takes the positive part; does the same with the
  second weight and bias (128 → 64); and then applies ONE 64 → 128 layer whose weight is the two heads' 64 × 64 weights
  set side by side and whose bias is the two heads' bias rows set side by side. A product of a row with a matrix whose
  columns are those of `A` followed by those of `B` is, column by column, the product with `A` (columns 0..63) or with
  `B` (columns 64..127), and the same holds for the bias row and the positive part, since both act coordinate by
  coordinate. So the 128 columns of the result are the actor's activated head layer followed by the critic's, each on
  the same encoding of the states. Every sum is a finite sum of extended reals read through a bijection of its index
  set; nothing else about the extended reals is used.
-/
import proofs.«147933_g49220325212179_cont_8to1c4_445_34_alg».proof.Proof.Net
import proofs.«147933_g49220325212179_cont_8to1c4_445_34_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Mlp

open Idealize.ShloMosaic Idealize.ShloMosaic.ValueIdx

/-- The first product's dimension numbers: both operands contracted along their first axis (36). -/
abbrev dotIn := Cert.KernelIdeal.dot_S36x16384_S36x128_S16384x128_0_0_1_1_n_n
/-- The second product's dimension numbers: rows (128) against columns. -/
abbrev dotMid := Cert.KernelIdeal.dot_S16384x128_S128x64_S16384x64_1_0_0_1_n_n
/-- The third product's dimension numbers: rows (64) against the columns of the two heads' weights side by side. -/
abbrev dotHeads := Cert.KernelIdeal.dot_S16384x64_S64x128_S16384x128_1_0_0_1_n_n

/-! ## The first product, 36 → 128, its left operand transposed -/

/-- The left operand's free axis (its second) carries the output's row. -/
theorem dotIn_lhs_free (i : Cert.KernelIdeal.S16384x128.Idx) (q : dotIn.contr.Idx) :
    (dotIn.lhsIdx i q 1).val = (i 0).val := by
  unfold DotDims.lhsIdx
  rw [dif_neg (show ¬(1 : Fin Cert.KernelIdeal.S36x16384.rank) ∈ dotIn.lhsBatch by decide),
    dif_pos (show (1 : Fin Cert.KernelIdeal.S36x16384.rank) ∈ dotIn.lhsNonContracting by decide)]
  rfl
/-- The left operand's contracted axis (its first) carries the summation index. -/
theorem dotIn_lhs_contr (i : Cert.KernelIdeal.S16384x128.Idx) (q : dotIn.contr.Idx) :
    (dotIn.lhsIdx i q 0).val = (q ⟨0, by decide⟩).val :=
  dotIn.lhsIdx_val_of_single rfl i q
/-- The right operand's contracted axis (its first) carries the summation index. -/
theorem dotIn_rhs_contr (i : Cert.KernelIdeal.S16384x128.Idx) (q : dotIn.contr.Idx) :
    (dotIn.rhsIdx i q 0).val = (q ⟨0, by decide⟩).val :=
  dotIn.rhsIdx_val_of_single rfl i q
/-- The right operand's free axis (its second) carries the output's column. -/
theorem dotIn_rhs_free (i : Cert.KernelIdeal.S16384x128.Idx) (q : dotIn.contr.Idx) :
    (dotIn.rhsIdx i q 1).val = (i 1).val := by
  unfold DotDims.rhsIdx
  rw [dif_neg (show ¬(1 : Fin Cert.KernelIdeal.S36x128.rank) ∈ dotIn.rhsBatch by decide),
    dif_pos (show (1 : Fin Cert.KernelIdeal.S36x128.rank) ∈ dotIn.rhsNonContracting by decide)]
  rfl

/-- The first product at `(b, j)`: the left operand is read down its column `b`, the right down its column `j`. -/
theorem matmul_in_apply (l : Mat 36 16384) (r : Mat 36 128) (b : Fin 16384) (j : Fin 128) :
    matmul (F := Ideal) (φ₁ := .f32) (φ₂ := .f32) dotIn none l r (constant Cert.KernelIdeal.S16384x128 .f32 0x00000000#32) (ix2 b j)
      = ∑ k : Fin 36, l (ix2 k b) * r (ix2 k j) := by
  simp only [matmul]
  rw [Ideal.matmul_constant_zero_apply, ← Equiv.sum_comp (contrEquiv1 dotIn 36 rfl rfl).symm]
  refine Finset.sum_congr rfl fun k _ => ?_
  have hk := contrEquiv1_symm_val dotIn 36 rfl rfl k
  have el : dotIn.lhsIdx (ix2 b j) ((contrEquiv1 dotIn 36 rfl rfl).symm k) = ix2 k b := funext fun a => Fin.ext (by
    match a with
    | ⟨0, _⟩ => exact (dotIn_lhs_contr _ _).trans hk
    | ⟨1, _⟩ => exact dotIn_lhs_free _ _)
  have er : dotIn.rhsIdx (ix2 b j) ((contrEquiv1 dotIn 36 rfl rfl).symm k) = ix2 k j := funext fun a => Fin.ext (by
    match a with
    | ⟨0, _⟩ => exact (dotIn_rhs_contr _ _).trans hk
    | ⟨1, _⟩ => exact dotIn_rhs_free _ _)
  rw [el, er]

/-! ## The second product, 128 → 64 -/

/-- The left operand's free axis (its first) carries the output's row. -/
theorem dotMid_lhs_free (i : Cert.KernelIdeal.S16384x64.Idx) (q : dotMid.contr.Idx) :
    (dotMid.lhsIdx i q 0).val = (i 0).val := by
  unfold DotDims.lhsIdx
  rw [dif_neg (show ¬(0 : Fin Cert.KernelIdeal.S16384x128.rank) ∈ dotMid.lhsBatch by decide),
    dif_pos (show (0 : Fin Cert.KernelIdeal.S16384x128.rank) ∈ dotMid.lhsNonContracting by decide)]
  rfl
/-- The left operand's contracted axis (its second) carries the summation index. -/
theorem dotMid_lhs_contr (i : Cert.KernelIdeal.S16384x64.Idx) (q : dotMid.contr.Idx) :
    (dotMid.lhsIdx i q 1).val = (q ⟨0, by decide⟩).val :=
  dotMid.lhsIdx_val_of_single rfl i q
/-- The right operand's contracted axis (its first) carries the summation index. -/
theorem dotMid_rhs_contr (i : Cert.KernelIdeal.S16384x64.Idx) (q : dotMid.contr.Idx) :
    (dotMid.rhsIdx i q 0).val = (q ⟨0, by decide⟩).val :=
  dotMid.rhsIdx_val_of_single rfl i q
/-- The right operand's free axis (its second) carries the output's column. -/
theorem dotMid_rhs_free (i : Cert.KernelIdeal.S16384x64.Idx) (q : dotMid.contr.Idx) :
    (dotMid.rhsIdx i q 1).val = (i 1).val := by
  unfold DotDims.rhsIdx
  rw [dif_neg (show ¬(1 : Fin Cert.KernelIdeal.S128x64.rank) ∈ dotMid.rhsBatch by decide),
    dif_pos (show (1 : Fin Cert.KernelIdeal.S128x64.rank) ∈ dotMid.rhsNonContracting by decide)]
  rfl

/-- The second product at `(b, j)`: row `b` of the left operand against column `j` of the right. -/
theorem matmul_mid_apply (l : Mat 16384 128) (r : Mat 128 64) (b : Fin 16384) (j : Fin 64) :
    matmul (F := Ideal) (φ₁ := .f32) (φ₂ := .f32) dotMid none l r (constant Cert.KernelIdeal.S16384x64 .f32 0x00000000#32) (ix2 b j)
      = ∑ k : Fin 128, l (ix2 b k) * r (ix2 k j) := by
  simp only [matmul]
  rw [Ideal.matmul_constant_zero_apply, ← Equiv.sum_comp (contrEquiv1 dotMid 128 rfl rfl).symm]
  refine Finset.sum_congr rfl fun k _ => ?_
  have hk := contrEquiv1_symm_val dotMid 128 rfl rfl k
  have el : dotMid.lhsIdx (ix2 b j) ((contrEquiv1 dotMid 128 rfl rfl).symm k) = ix2 b k := funext fun a => Fin.ext (by
    match a with
    | ⟨0, _⟩ => exact dotMid_lhs_free _ _
    | ⟨1, _⟩ => exact (dotMid_lhs_contr _ _).trans hk)
  have er : dotMid.rhsIdx (ix2 b j) ((contrEquiv1 dotMid 128 rfl rfl).symm k) = ix2 k j := funext fun a => Fin.ext (by
    match a with
    | ⟨0, _⟩ => exact (dotMid_rhs_contr _ _).trans hk
    | ⟨1, _⟩ => exact dotMid_rhs_free _ _)
  rw [el, er]

/-! ## The third product, 64 → 128 -/

/-- The left operand's free axis (its first) carries the output's row. -/
theorem dotHeads_lhs_free (i : Cert.KernelIdeal.S16384x128.Idx) (q : dotHeads.contr.Idx) :
    (dotHeads.lhsIdx i q 0).val = (i 0).val := by
  unfold DotDims.lhsIdx
  rw [dif_neg (show ¬(0 : Fin Cert.KernelIdeal.S16384x64.rank) ∈ dotHeads.lhsBatch by decide),
    dif_pos (show (0 : Fin Cert.KernelIdeal.S16384x64.rank) ∈ dotHeads.lhsNonContracting by decide)]
  rfl
/-- The left operand's contracted axis (its second) carries the summation index. -/
theorem dotHeads_lhs_contr (i : Cert.KernelIdeal.S16384x128.Idx) (q : dotHeads.contr.Idx) :
    (dotHeads.lhsIdx i q 1).val = (q ⟨0, by decide⟩).val :=
  dotHeads.lhsIdx_val_of_single rfl i q
/-- The right operand's contracted axis (its first) carries the summation index. -/
theorem dotHeads_rhs_contr (i : Cert.KernelIdeal.S16384x128.Idx) (q : dotHeads.contr.Idx) :
    (dotHeads.rhsIdx i q 0).val = (q ⟨0, by decide⟩).val :=
  dotHeads.rhsIdx_val_of_single rfl i q
/-- The right operand's free axis (its second) carries the output's column. -/
theorem dotHeads_rhs_free (i : Cert.KernelIdeal.S16384x128.Idx) (q : dotHeads.contr.Idx) :
    (dotHeads.rhsIdx i q 1).val = (i 1).val := by
  unfold DotDims.rhsIdx
  rw [dif_neg (show ¬(1 : Fin Cert.KernelIdeal.S64x128.rank) ∈ dotHeads.rhsBatch by decide),
    dif_pos (show (1 : Fin Cert.KernelIdeal.S64x128.rank) ∈ dotHeads.rhsNonContracting by decide)]
  rfl

/-- The third product at `(b, j)`: row `b` of the left operand against column `j` of the right. -/
theorem matmul_heads_apply (l : Mat 16384 64) (r : Mat 64 128) (b : Fin 16384) (j : Fin 128) :
    matmul (F := Ideal) (φ₁ := .f32) (φ₂ := .f32) dotHeads none l r (constant Cert.KernelIdeal.S16384x128 .f32 0x00000000#32) (ix2 b j)
      = ∑ k : Fin 64, l (ix2 b k) * r (ix2 k j) := by
  simp only [matmul]
  rw [Ideal.matmul_constant_zero_apply, ← Equiv.sum_comp (contrEquiv1 dotHeads 64 rfl rfl).symm]
  refine Finset.sum_congr rfl fun k _ => ?_
  have hk := contrEquiv1_symm_val dotHeads 64 rfl rfl k
  have el : dotHeads.lhsIdx (ix2 b j) ((contrEquiv1 dotHeads 64 rfl rfl).symm k) = ix2 b k := funext fun a => Fin.ext (by
    match a with
    | ⟨0, _⟩ => exact dotHeads_lhs_free _ _
    | ⟨1, _⟩ => exact (dotHeads_lhs_contr _ _).trans hk)
  have er : dotHeads.rhsIdx (ix2 b j) ((contrEquiv1 dotHeads 64 rfl rfl).symm k) = ix2 k j := funext fun a => Fin.ext (by
    match a with
    | ⟨0, _⟩ => exact (dotHeads_rhs_contr _ _).trans hk
    | ⟨1, _⟩ => exact dotHeads_rhs_free _ _)
  rw [el, er]

/-! ## A bias row repeated over the batch, and two blocks side by side -/

/-- A `1 × n` row cast to its own shape and repeated over `m` rows reads, at `(p, c)`, the row at `c`. -/
theorem row_over_batch_apply {m n : ℕ} (v : Mat 1 n) (h : (⟨2, ![1, n]⟩ : Shape).ShapeCasts ⟨2, ![1, n]⟩)
    (h' : (⟨2, ![1, n]⟩ : Shape).Broadcasts ⟨2, ![m, n]⟩) (p : Fin m) (c : Fin n) :
    broadcastTo ⟨2, ![m, n]⟩ (shapeCast ⟨2, ![1, n]⟩ v h) h' (ix2 p c) = v (ix2 0 c) := by
  rw [shapeCast_self]
  exact broadcastTo_1b_ab_apply v h' p c

/-- Two `m × 64` blocks side by side read, at a column `c < 64`, the left block at `c`. -/
theorem side_by_side_left {m : ℕ} (A B : Mat m 64)
    (h : Shape.Concatenates [(⟨2, ![m, 64]⟩ : Shape), ⟨2, ![m, 64]⟩] ⟨2, ![m, 128]⟩ 1) (k : Fin m) (c : Fin 64) :
    concatenate ⟨2, ![m, 128]⟩ 1 [⟨⟨2, ![m, 64]⟩, A⟩, ⟨⟨2, ![m, 64]⟩, B⟩] h
        (ix2 k (⟨c.val, by have := c.isLt; omega⟩ : Fin 128)) = A (ix2 k c) := by
  refine concatenate_pair_apply_left 1 A B h _ rfl (ix2 k c) fun a => ?_
  match a with
  | ⟨0, _⟩ => rfl
  | ⟨1, _⟩ => rfl

/-- Two `m × 64` blocks side by side read, at a column `64 + c`, the right block at `c`. -/
theorem side_by_side_right {m : ℕ} (A B : Mat m 64)
    (h : Shape.Concatenates [(⟨2, ![m, 64]⟩ : Shape), ⟨2, ![m, 64]⟩] ⟨2, ![m, 128]⟩ 1) (k : Fin m) (c : Fin 64) :
    concatenate ⟨2, ![m, 128]⟩ 1 [⟨⟨2, ![m, 64]⟩, A⟩, ⟨⟨2, ![m, 64]⟩, B⟩] h
        (ix2 k (⟨64 + c.val, by have := c.isLt; omega⟩ : Fin 128)) = B (ix2 k c) := by
  refine concatenate_pair_apply_right 1 A B h _ rfl rfl (ix2 k c) (fun a ha => ?_) ?_
  · match a with
    | ⟨0, _⟩ => rfl
    | ⟨1, _⟩ => exact absurd rfl ha
  · show c.val + 64 = 64 + c.val
    omega

/-! ## One layer at a coordinate -/

/-- Adding a bias row repeated over the batch and taking the positive part, at `(b, j)`. -/
theorem bias_relu_apply {m n : ℕ} (M : Mat m n) (v : Mat 1 n) (h : (⟨2, ![1, n]⟩ : Shape).ShapeCasts ⟨2, ![1, n]⟩)
    (h' : (⟨2, ![1, n]⟩ : Shape).Broadcasts ⟨2, ![m, n]⟩) (b : Fin m) (j : Fin n) :
    maximumf (F := Ideal) (φ := .f32) (addf M (broadcastTo ⟨2, ![m, n]⟩ (shapeCast ⟨2, ![1, n]⟩ v h) h'))
        (broadcast ⟨2, ![m, n]⟩ (Scalar.ofBits .f32 0x00000000#32)) (ix2 b j)
      = max (M (ix2 b j) + v (ix2 0 j)) 0 := by
  show max (M (ix2 b j) + broadcastTo ⟨2, ![m, n]⟩ (shapeCast ⟨2, ![1, n]⟩ v h) h' (ix2 b j)) (Ideal.ofBits .f32 0x00000000#32) = _
  rw [row_over_batch_apply, Ideal.ofBits_zero_f32]

/-- The first layer at `(b, j)`: the activated affine layer on the states, read off the transposed state matrix. -/
theorem layer_in_apply (x0 : Mat 36 16384) (W : Mat 36 128) (v : Mat 1 128)
    (hx : (⟨2, ![36, 16384]⟩ : Shape).ShapeCasts ⟨2, ![36, 16384]⟩)
    (h : (⟨2, ![1, 128]⟩ : Shape).ShapeCasts ⟨2, ![1, 128]⟩)
    (h' : (⟨2, ![1, 128]⟩ : Shape).Broadcasts ⟨2, ![16384, 128]⟩) (b : Fin 16384) (j : Fin 128) :
    maximumf (F := Ideal) (φ := .f32)
        (addf (matmul (φ₁ := .f32) (φ₂ := .f32) dotIn none (shapeCast ⟨2, ![36, 16384]⟩ x0 hx) W
            (constant ⟨2, ![16384, 128]⟩ .f32 0x00000000#32))
          (broadcastTo ⟨2, ![16384, 128]⟩ (shapeCast ⟨2, ![1, 128]⟩ v h) h'))
        (broadcast ⟨2, ![16384, 128]⟩ (Scalar.ofBits .f32 0x00000000#32)) (ix2 b j)
      = act (fun b k => x0 (ix2 k b)) W (fun j => v (ix2 0 j)) b j := by
  rw [shapeCast_self x0 hx]
  refine (bias_relu_apply _ v h h' b j).trans ?_
  rw [matmul_in_apply]
  rfl

/-- The second layer at `(b, j)`, on an input known coordinate by coordinate. -/
theorem layer_mid_apply (V : Mat 16384 128) (e : Fin 16384 → Fin 128 → EReal) (hV : ∀ b k, V (ix2 b k) = e b k)
    (W : Mat 128 64) (v : Mat 1 64)
    (h : (⟨2, ![1, 64]⟩ : Shape).ShapeCasts ⟨2, ![1, 64]⟩)
    (h' : (⟨2, ![1, 64]⟩ : Shape).Broadcasts ⟨2, ![16384, 64]⟩) (b : Fin 16384) (j : Fin 64) :
    maximumf (F := Ideal) (φ := .f32)
        (addf (matmul (φ₁ := .f32) (φ₂ := .f32) dotMid none V W (constant ⟨2, ![16384, 64]⟩ .f32 0x00000000#32))
          (broadcastTo ⟨2, ![16384, 64]⟩ (shapeCast ⟨2, ![1, 64]⟩ v h) h'))
        (broadcast ⟨2, ![16384, 64]⟩ (Scalar.ofBits .f32 0x00000000#32)) (ix2 b j)
      = act e W (fun j => v (ix2 0 j)) b j := by
  refine (bias_relu_apply _ v h h' b j).trans ?_
  rw [matmul_mid_apply]
  exact congrArg (fun s => max (s + v (ix2 0 j)) 0) (Finset.sum_congr rfl fun k _ => by rw [hV])

/-- The third layer at a column `c < 64`: the activated affine layer with the first head's weight and bias, on an
    input known coordinate by coordinate. -/
theorem layer_heads_left_apply (V : Mat 16384 64) (e : Fin 16384 → Fin 64 → EReal) (hV : ∀ b k, V (ix2 b k) = e b k)
    (A B : Mat 64 64) (α β : Mat 1 64)
    (hc : Shape.Concatenates [(⟨2, ![64, 64]⟩ : Shape), ⟨2, ![64, 64]⟩] ⟨2, ![64, 128]⟩ 1)
    (hcb : Shape.Concatenates [(⟨2, ![1, 64]⟩ : Shape), ⟨2, ![1, 64]⟩] ⟨2, ![1, 128]⟩ 1)
    (hα hβ : (⟨2, ![1, 64]⟩ : Shape).ShapeCasts ⟨2, ![1, 64]⟩)
    (hb : (⟨2, ![1, 128]⟩ : Shape).Broadcasts ⟨2, ![16384, 128]⟩) (b : Fin 16384) (j : Fin 64) :
    maximumf (F := Ideal) (φ := .f32)
        (addf (matmul (φ₁ := .f32) (φ₂ := .f32) dotHeads none V
            (concatenate ⟨2, ![64, 128]⟩ 1 [⟨⟨2, ![64, 64]⟩, A⟩, ⟨⟨2, ![64, 64]⟩, B⟩] hc)
            (constant ⟨2, ![16384, 128]⟩ .f32 0x00000000#32))
          (broadcastTo ⟨2, ![16384, 128]⟩
            (concatenate ⟨2, ![1, 128]⟩ 1
              [⟨⟨2, ![1, 64]⟩, shapeCast ⟨2, ![1, 64]⟩ α hα⟩, ⟨⟨2, ![1, 64]⟩, shapeCast ⟨2, ![1, 64]⟩ β hβ⟩] hcb) hb))
        (broadcast ⟨2, ![16384, 128]⟩ (Scalar.ofBits .f32 0x00000000#32))
        (ix2 b (⟨j.val, by have := j.isLt; omega⟩ : Fin 128))
      = act e A (fun j => α (ix2 0 j)) b j := by
  show max (matmul (F := Ideal) (φ₁ := .f32) (φ₂ := .f32) dotHeads none V
          (concatenate ⟨2, ![64, 128]⟩ 1 [⟨⟨2, ![64, 64]⟩, A⟩, ⟨⟨2, ![64, 64]⟩, B⟩] hc)
          (constant ⟨2, ![16384, 128]⟩ .f32 0x00000000#32) (ix2 b (⟨j.val, by have := j.isLt; omega⟩ : Fin 128))
        + broadcastTo ⟨2, ![16384, 128]⟩
            (concatenate ⟨2, ![1, 128]⟩ 1
              [⟨⟨2, ![1, 64]⟩, shapeCast ⟨2, ![1, 64]⟩ α hα⟩, ⟨⟨2, ![1, 64]⟩, shapeCast ⟨2, ![1, 64]⟩ β hβ⟩] hcb) hb
            (ix2 b (⟨j.val, by have := j.isLt; omega⟩ : Fin 128)))
      (Ideal.ofBits .f32 0x00000000#32) = _
  rw [Ideal.ofBits_zero_f32, matmul_heads_apply, broadcastTo_1b_ab_apply, side_by_side_left, shapeCast_self]
  exact congrArg (fun s => max (s + α (ix2 0 j)) 0)
    (Finset.sum_congr rfl fun k _ => by rw [hV, side_by_side_left])

/-- The third layer at a column `64 + c`: the activated affine layer with the second head's weight and bias, on an
    input known coordinate by coordinate. -/
theorem layer_heads_right_apply (V : Mat 16384 64) (e : Fin 16384 → Fin 64 → EReal) (hV : ∀ b k, V (ix2 b k) = e b k)
    (A B : Mat 64 64) (α β : Mat 1 64)
    (hc : Shape.Concatenates [(⟨2, ![64, 64]⟩ : Shape), ⟨2, ![64, 64]⟩] ⟨2, ![64, 128]⟩ 1)
    (hcb : Shape.Concatenates [(⟨2, ![1, 64]⟩ : Shape), ⟨2, ![1, 64]⟩] ⟨2, ![1, 128]⟩ 1)
    (hα hβ : (⟨2, ![1, 64]⟩ : Shape).ShapeCasts ⟨2, ![1, 64]⟩)
    (hb : (⟨2, ![1, 128]⟩ : Shape).Broadcasts ⟨2, ![16384, 128]⟩) (b : Fin 16384) (j : Fin 64) :
    maximumf (F := Ideal) (φ := .f32)
        (addf (matmul (φ₁ := .f32) (φ₂ := .f32) dotHeads none V
            (concatenate ⟨2, ![64, 128]⟩ 1 [⟨⟨2, ![64, 64]⟩, A⟩, ⟨⟨2, ![64, 64]⟩, B⟩] hc)
            (constant ⟨2, ![16384, 128]⟩ .f32 0x00000000#32))
          (broadcastTo ⟨2, ![16384, 128]⟩
            (concatenate ⟨2, ![1, 128]⟩ 1
              [⟨⟨2, ![1, 64]⟩, shapeCast ⟨2, ![1, 64]⟩ α hα⟩, ⟨⟨2, ![1, 64]⟩, shapeCast ⟨2, ![1, 64]⟩ β hβ⟩] hcb) hb))
        (broadcast ⟨2, ![16384, 128]⟩ (Scalar.ofBits .f32 0x00000000#32))
        (ix2 b (⟨64 + j.val, by have := j.isLt; omega⟩ : Fin 128))
      = act e B (fun j => β (ix2 0 j)) b j := by
  show max (matmul (F := Ideal) (φ₁ := .f32) (φ₂ := .f32) dotHeads none V
          (concatenate ⟨2, ![64, 128]⟩ 1 [⟨⟨2, ![64, 64]⟩, A⟩, ⟨⟨2, ![64, 64]⟩, B⟩] hc)
          (constant ⟨2, ![16384, 128]⟩ .f32 0x00000000#32) (ix2 b (⟨64 + j.val, by have := j.isLt; omega⟩ : Fin 128))
        + broadcastTo ⟨2, ![16384, 128]⟩
            (concatenate ⟨2, ![1, 128]⟩ 1
              [⟨⟨2, ![1, 64]⟩, shapeCast ⟨2, ![1, 64]⟩ α hα⟩, ⟨⟨2, ![1, 64]⟩, shapeCast ⟨2, ![1, 64]⟩ β hβ⟩] hcb) hb
            (ix2 b (⟨64 + j.val, by have := j.isLt; omega⟩ : Fin 128)))
      (Ideal.ofBits .f32 0x00000000#32) = _
  rw [Ideal.ofBits_zero_f32, matmul_heads_apply, broadcastTo_1b_ab_apply, side_by_side_right, shapeCast_self]
  exact congrArg (fun s => max (s + β (ix2 0 j)) 0)
    (Finset.sum_congr rfl fun k _ => by rw [hV, side_by_side_right])

/-! ## The body's first value -/

/-- The body's first value at a column below 64 is the actor's activated head layer on the encoding of the states. -/
theorem hidden_left (x0 : Mat 36 16384) (x1 : Mat 36 128) (x2 : Mat 1 128) (x3 : Mat 128 64) (x4 : Mat 1 64)
    (x5 x9 : Mat 64 64) (x6 x10 : Mat 1 64) (b : Fin 16384) (j : Fin 64) :
    Cert.KernelIdeal.Gen.k0_pay4 (F := Ideal) x0 x1 x2 x3 x4 x5 x9 x6 x10 (ix2 b (⟨j.val, by have := j.isLt; omega⟩ : Fin 128))
      = act (enc (fun b k => x0 (ix2 k b)) x1 (fun j => x2 (ix2 0 j)) x3 (fun j => x4 (ix2 0 j))) x5 (fun j => x6 (ix2 0 j)) b j :=
  layer_heads_left_apply _ _
    (fun b k => layer_mid_apply _ _ (fun b k => layer_in_apply x0 x1 x2 _ _ _ b k) x3 x4 _ _ b k)
    x5 x9 x6 x10 _ _ _ _ _ b j

/-- The body's first value at a column `64 + j` is the critic's activated head layer on the same encoding. -/
theorem hidden_right (x0 : Mat 36 16384) (x1 : Mat 36 128) (x2 : Mat 1 128) (x3 : Mat 128 64) (x4 : Mat 1 64)
    (x5 x9 : Mat 64 64) (x6 x10 : Mat 1 64) (b : Fin 16384) (j : Fin 64) :
    Cert.KernelIdeal.Gen.k0_pay4 (F := Ideal) x0 x1 x2 x3 x4 x5 x9 x6 x10 (ix2 b (⟨64 + j.val, by have := j.isLt; omega⟩ : Fin 128))
      = act (enc (fun b k => x0 (ix2 k b)) x1 (fun j => x2 (ix2 0 j)) x3 (fun j => x4 (ix2 0 j))) x9 (fun j => x10 (ix2 0 j)) b j :=
  layer_heads_right_apply _ _
    (fun b k => layer_mid_apply _ _ (fun b k => layer_in_apply x0 x1 x2 _ _ _ b k) x3 x4 _ _ b k)
    x5 x9 x6 x10 _ _ _ _ _ b j

end Cert.Mlp

end
-- ==== Proof.Heads.lean ====
/-
  The last stage of the kernel body, read one entry at a time.

  The body stacks the two heads' output weights into one 128 × 10 block-diagonal matrix: the actor's 64 × 9 weights in
  the upper left, the critic's 64 × 1 weights in the lower right, exact zeros elsewhere. It multiplies that matrix,
  contracted along its 128 rows, with the 16384 × 128 hidden activations (contracted along their 128 columns), getting a
  10 × 16384 array; adds a bias column, which it obtains as a one-term product of the row of the ten biases with the
  1 × 1 matrix [1]; and cuts rows 0..8 (the logits) and row 9 (the value) out of the sum.

  On the extended reals 0 · x = 0 for every x, infinite or not, so in each entry's 128-term sum the 64 terms that meet a
  zero block vanish and the sum is the 64-term sum of the head that owns the column; and bias · 1 = bias. No other law is
  used: a sum over 128 terms splits into its halves, products commute.
-/
import proofs.«147933_g49220325212179_cont_8to1c4_445_34_alg».proof.Proof.Net
import proofs.«147933_g49220325212179_cont_8to1c4_445_34_alg».proof.Proof.Gen.KernelIdeal.Skeleton
import Idealize.ShloMosaic.Lib.Pipeline.Value
import Idealize.ShloMosaic.Lib.ValueIdx
import Idealize.ShloMosaic.PureOps.Ideal.Laws

noncomputable section

namespace Cert.Mlp

open Idealize.ShloMosaic Idealize.ShloMosaic.ValueIdx
open Cert.KernelIdeal

/-! ## The literal one -/

/-- The single-precision pattern `0x3F800000` denotes the extended real one. -/
theorem ofBits_one_f32 : Ideal.ofBits .f32 0x3F800000#32 = 1 := by
  simp [Ideal.ofBits, Ideal.ieee, -EReal.coe_mul]; norm_num

/-! ## The two products at an entry -/

/-- The weight product reads its left factor's column coordinate from the result's row coordinate. -/
theorem weight_product_lhs_col (i : S10x16384.Idx) (q : dot_S128x10_S16384x128_S10x16384_0_1_1_0_n_n.contr.Idx) :
    (dot_S128x10_S16384x128_S10x16384_0_1_1_0_n_n.lhsIdx i q 1).val = (i 0).val := by
  unfold DotDims.lhsIdx
  rw [dif_neg (show ¬(1 : Fin S128x10.rank) ∈ dot_S128x10_S16384x128_S10x16384_0_1_1_0_n_n.lhsBatch by decide),
    dif_pos (show (1 : Fin S128x10.rank) ∈ dot_S128x10_S16384x128_S10x16384_0_1_1_0_n_n.lhsNonContracting by decide)]
  rfl

/-- The weight product reads its right factor's row coordinate from the result's column coordinate. -/
theorem weight_product_rhs_row (i : S10x16384.Idx) (q : dot_S128x10_S16384x128_S10x16384_0_1_1_0_n_n.contr.Idx) :
    (dot_S128x10_S16384x128_S10x16384_0_1_1_0_n_n.rhsIdx i q 0).val = (i 1).val := by
  unfold DotDims.rhsIdx
  rw [dif_neg (show ¬(0 : Fin S16384x128.rank) ∈ dot_S128x10_S16384x128_S10x16384_0_1_1_0_n_n.rhsBatch by decide),
    dif_pos (show (0 : Fin S16384x128.rank) ∈ dot_S128x10_S16384x128_S10x16384_0_1_1_0_n_n.rhsNonContracting by decide)]
  rfl

/-- The weight product at entry `(c, b)`: the block matrix is contracted along its rows, the activations along their
    columns, so the entry is the sum over `k` of `w[k, c] · x[b, k]`. -/
theorem weight_product_apply (w : FVec Ideal S128x10 .f32) (x : FVec Ideal S16384x128 .f32) (c : Fin 10) (b : Fin 16384) :
    matmul dot_S128x10_S16384x128_S10x16384_0_1_1_0_n_n none w x (constant S10x16384 .f32 0x00000000#32) (ix2 c b)
      = ∑ k : Fin 128, w (ix2 k c) * x (ix2 b k) := by
  refine (Ideal.matmul_constant_zero_apply dot_S128x10_S16384x128_S10x16384_0_1_1_0_n_n none w x (ix2 c b)).trans ?_
  rw [← Equiv.sum_comp (contrEquiv1 dot_S128x10_S16384x128_S10x16384_0_1_1_0_n_n 128 rfl rfl).symm]
  refine Finset.sum_congr rfl fun k _ => ?_
  have hk := contrEquiv1_symm_val dot_S128x10_S16384x128_S10x16384_0_1_1_0_n_n 128 rfl rfl k
  have el : dot_S128x10_S16384x128_S10x16384_0_1_1_0_n_n.lhsIdx (ix2 c b)
      ((contrEquiv1 dot_S128x10_S16384x128_S10x16384_0_1_1_0_n_n 128 rfl rfl).symm k) = ix2 k c :=
    funext fun a => Fin.ext (by
      match a with
      | ⟨0, _⟩ => exact (dot_S128x10_S16384x128_S10x16384_0_1_1_0_n_n.lhsIdx_val_of_single rfl _ _).trans hk
      | ⟨1, _⟩ => exact weight_product_lhs_col _ _)
  have er : dot_S128x10_S16384x128_S10x16384_0_1_1_0_n_n.rhsIdx (ix2 c b)
      ((contrEquiv1 dot_S128x10_S16384x128_S10x16384_0_1_1_0_n_n 128 rfl rfl).symm k) = ix2 b k :=
    funext fun a => Fin.ext (by
      match a with
      | ⟨0, _⟩ => exact weight_product_rhs_row _ _
      | ⟨1, _⟩ => exact (dot_S128x10_S16384x128_S10x16384_0_1_1_0_n_n.rhsIdx_val_of_single rfl _ _).trans hk)
  rw [el, er]

/-- The bias product reads its left factor's column coordinate from the result's row coordinate. -/
theorem bias_product_lhs_col (i : S10x1.Idx) (q : dot_S1x10_S1x1_S10x1_0_0_1_1_n_n.contr.Idx) :
    (dot_S1x10_S1x1_S10x1_0_0_1_1_n_n.lhsIdx i q 1).val = (i 0).val := by
  unfold DotDims.lhsIdx
  rw [dif_neg (show ¬(1 : Fin S1x10.rank) ∈ dot_S1x10_S1x1_S10x1_0_0_1_1_n_n.lhsBatch by decide),
    dif_pos (show (1 : Fin S1x10.rank) ∈ dot_S1x10_S1x1_S10x1_0_0_1_1_n_n.lhsNonContracting by decide)]
  rfl

/-- The bias product reads its right factor's column coordinate from the result's column coordinate. -/
theorem bias_product_rhs_col (i : S10x1.Idx) (q : dot_S1x10_S1x1_S10x1_0_0_1_1_n_n.contr.Idx) :
    (dot_S1x10_S1x1_S10x1_0_0_1_1_n_n.rhsIdx i q 1).val = (i 1).val := by
  unfold DotDims.rhsIdx
  rw [dif_neg (show ¬(1 : Fin S1x1.rank) ∈ dot_S1x10_S1x1_S10x1_0_0_1_1_n_n.rhsBatch by decide),
    dif_pos (show (1 : Fin S1x1.rank) ∈ dot_S1x10_S1x1_S10x1_0_0_1_1_n_n.rhsNonContracting by decide)]
  rfl

/-- The bias product at entry `(c, 0)`: both factors are contracted along their single row, so the entry is the one-term
    sum `r[0, c] · u[0, 0]`. -/
theorem bias_product_apply (r : FVec Ideal S1x10 .f32) (u : FVec Ideal S1x1 .f32) (c : Fin 10) :
    matmul dot_S1x10_S1x1_S10x1_0_0_1_1_n_n none r u (constant S10x1 .f32 0x00000000#32) (ix2 c 0)
      = r (ix2 0 c) * u (ix2 0 0) := by
  refine (Ideal.matmul_constant_zero_apply dot_S1x10_S1x1_S10x1_0_0_1_1_n_n none r u (ix2 c 0)).trans ?_
  rw [← Equiv.sum_comp (contrEquiv1 dot_S1x10_S1x1_S10x1_0_0_1_1_n_n 1 rfl rfl).symm, Fin.sum_univ_one]
  have hk := contrEquiv1_symm_val dot_S1x10_S1x1_S10x1_0_0_1_1_n_n 1 rfl rfl 0
  have el : dot_S1x10_S1x1_S10x1_0_0_1_1_n_n.lhsIdx (ix2 c 0)
      ((contrEquiv1 dot_S1x10_S1x1_S10x1_0_0_1_1_n_n 1 rfl rfl).symm 0) = ix2 0 c :=
    funext fun a => Fin.ext (by
      match a with
      | ⟨0, _⟩ => exact (dot_S1x10_S1x1_S10x1_0_0_1_1_n_n.lhsIdx_val_of_single rfl _ _).trans hk
      | ⟨1, _⟩ => exact bias_product_lhs_col _ _)
  have er : dot_S1x10_S1x1_S10x1_0_0_1_1_n_n.rhsIdx (ix2 c 0)
      ((contrEquiv1 dot_S1x10_S1x1_S10x1_0_0_1_1_n_n 1 rfl rfl).symm 0) = ix2 0 0 :=
    funext fun a => Fin.ext (by
      match a with
      | ⟨0, _⟩ => exact (dot_S1x10_S1x1_S10x1_0_0_1_1_n_n.rhsIdx_val_of_single rfl _ _).trans hk
      | ⟨1, _⟩ => exact bias_product_rhs_col _ _)
  rw [el, er]

/-! ## The pieces of a concatenation at an entry -/

/-- A 64 × 9 block followed along the columns by a 64 × 1 block: a column below 9 reads the first block. -/
theorem columns_apply_left (p : FVec Ideal S64x9 .f32) (q : FVec Ideal S64x1 .f32)
    (h : Shape.Concatenates [S64x9, S64x1] S64x10 1) (k : Fin 64) (j : Fin 9) :
    concatenate S64x10 1 [⟨S64x9, p⟩, ⟨S64x1, q⟩] h (ix2 k (⟨j.val, by have := j.isLt; omega⟩ : Fin 10)) = p (ix2 k j) :=
  concatenate_pair_apply_left (1 : Fin S64x10.rank) p q h _ rfl (ix2 k j) (fun b => match b with
    | ⟨0, _⟩ => rfl
    | ⟨1, _⟩ => rfl)

/-- The same concatenation at column 9 reads the second block's only column. -/
theorem columns_apply_right (p : FVec Ideal S64x9 .f32) (q : FVec Ideal S64x1 .f32)
    (h : Shape.Concatenates [S64x9, S64x1] S64x10 1) (k : Fin 64) :
    concatenate S64x10 1 [⟨S64x9, p⟩, ⟨S64x1, q⟩] h (ix2 k (9 : Fin 10)) = q (ix2 k 0) :=
  concatenate_pair_apply_right (1 : Fin S64x10.rank) p q h _ rfl rfl (ix2 k 0) (fun b => match b with
    | ⟨0, _⟩ => fun _ => rfl
    | ⟨1, _⟩ => fun hb => absurd rfl hb) rfl

/-- A 64 × 10 block stacked on another: a row below 64 reads the upper block. -/
theorem rows_apply_upper (p q : FVec Ideal S64x10 .f32)
    (h : Shape.Concatenates [S64x10, S64x10] S128x10 0) (k : Fin 64) (c : Fin 10) :
    concatenate S128x10 0 [⟨S64x10, p⟩, ⟨S64x10, q⟩] h (ix2 (⟨k.val, by have := k.isLt; omega⟩ : Fin 128) c) = p (ix2 k c) :=
  concatenate_pair_apply_left (0 : Fin S128x10.rank) p q h _ rfl (ix2 k c) (fun b => match b with
    | ⟨0, _⟩ => rfl
    | ⟨1, _⟩ => rfl)

/-- The same stack at row `64 + k` reads the lower block's row `k`. -/
theorem rows_apply_lower (p q : FVec Ideal S64x10 .f32)
    (h : Shape.Concatenates [S64x10, S64x10] S128x10 0) (k : Fin 64) (c : Fin 10) :
    concatenate S128x10 0 [⟨S64x10, p⟩, ⟨S64x10, q⟩] h (ix2 (⟨64 + k.val, by have := k.isLt; omega⟩ : Fin 128) c) = q (ix2 k c) :=
  concatenate_pair_apply_right (0 : Fin S128x10.rank) p q h _ rfl rfl (ix2 k c) (fun b => match b with
    | ⟨0, _⟩ => fun hb => absurd rfl hb
    | ⟨1, _⟩ => fun _ => rfl) (by show k.val + 64 = 64 + k.val; omega)

/-- The row of nine biases followed by the row of one: a column below 9 reads the first row. -/
theorem bias_row_apply_left (p : FVec Ideal S1x9 .f32) (q : FVec Ideal S1x1 .f32)
    (h : Shape.Concatenates [S1x9, S1x1] S1x10 1) (j : Fin 9) :
    concatenate S1x10 1 [⟨S1x9, p⟩, ⟨S1x1, q⟩] h (ix2 0 (⟨j.val, by have := j.isLt; omega⟩ : Fin 10)) = p (ix2 0 j) :=
  concatenate_pair_apply_left (1 : Fin S1x10.rank) p q h _ rfl (ix2 0 j) (fun b => match b with
    | ⟨0, _⟩ => rfl
    | ⟨1, _⟩ => rfl)

/-- The same row at column 9 reads the second row's only entry. -/
theorem bias_row_apply_right (p : FVec Ideal S1x9 .f32) (q : FVec Ideal S1x1 .f32)
    (h : Shape.Concatenates [S1x9, S1x1] S1x10 1) :
    concatenate S1x10 1 [⟨S1x9, p⟩, ⟨S1x1, q⟩] h (ix2 0 (9 : Fin 10)) = q (ix2 0 0) :=
  concatenate_pair_apply_right (1 : Fin S1x10.rank) p q h _ rfl rfl (ix2 0 0) (fun b => match b with
    | ⟨0, _⟩ => fun _ => rfl
    | ⟨1, _⟩ => fun hb => absurd rfl hb) rfl

/-! ## The block-diagonal weight matrix -/

/-- The 128 × 10 matrix the body assembles from the two heads' output weights: `wa` in the upper left 64 × 9 corner,
    `wc` in the lower right 64 × 1 corner, the zero literal everywhere else. -/
def blockWeight (wa : FVec Ideal S64x9 .f32) (wc : FVec Ideal S64x1 .f32) : FVec Ideal S128x10 .f32 :=
  concatenate S128x10 0
    [⟨S64x10, concatenate S64x10 1 [⟨S64x9, wa⟩, ⟨S64x1, broadcast S64x1 (Ideal.ofBits .f32 0x00000000#32)⟩]
        Facts₀.concatenates_S64x9_S64x1_S64x10_d1⟩,
      ⟨S64x10, concatenate S64x10 1 [⟨S64x9, broadcast S64x9 (Ideal.ofBits .f32 0x00000000#32)⟩, ⟨S64x1, wc⟩]
        Facts₀.concatenates_S64x9_S64x1_S64x10_d1⟩]
    Facts₀.concatenates_S64x10_S64x10_S128x10_d0

/-- Upper left corner: the first head's weights. -/
theorem blockWeight_upper_left (wa : FVec Ideal S64x9 .f32) (wc : FVec Ideal S64x1 .f32) (k : Fin 64) (j : Fin 9) :
    blockWeight wa wc (ix2 (⟨k.val, by have := k.isLt; omega⟩ : Fin 128) (⟨j.val, by have := j.isLt; omega⟩ : Fin 10))
      = wa (ix2 k j) :=
  (rows_apply_upper _ _ _ k _).trans (columns_apply_left _ _ _ k j)

/-- Lower left corner: zeros. -/
theorem blockWeight_lower_left (wa : FVec Ideal S64x9 .f32) (wc : FVec Ideal S64x1 .f32) (k : Fin 64) (j : Fin 9) :
    blockWeight wa wc (ix2 (⟨64 + k.val, by have := k.isLt; omega⟩ : Fin 128) (⟨j.val, by have := j.isLt; omega⟩ : Fin 10))
      = 0 :=
  (rows_apply_lower _ _ _ k _).trans ((columns_apply_left _ _ _ k j).trans Ideal.ofBits_zero_f32)

/-- Upper right corner: zeros. -/
theorem blockWeight_upper_right (wa : FVec Ideal S64x9 .f32) (wc : FVec Ideal S64x1 .f32) (k : Fin 64) :
    blockWeight wa wc (ix2 (⟨k.val, by have := k.isLt; omega⟩ : Fin 128) (9 : Fin 10)) = 0 :=
  (rows_apply_upper _ _ _ k _).trans ((columns_apply_right _ _ _ k).trans Ideal.ofBits_zero_f32)

/-- Lower right corner: the second head's weights. -/
theorem blockWeight_lower_right (wa : FVec Ideal S64x9 .f32) (wc : FVec Ideal S64x1 .f32) (k : Fin 64) :
    blockWeight wa wc (ix2 (⟨64 + k.val, by have := k.isLt; omega⟩ : Fin 128) (9 : Fin 10)) = wc (ix2 k 0) :=
  (rows_apply_lower _ _ _ k _).trans (columns_apply_right _ _ _ k)

/-- A column below 9 of the block matrix against a row of activations: the lower 64 terms meet zeros and vanish, the
    upper 64 are the first head's. -/
theorem blockWeight_sum_left (wa : FVec Ideal S64x9 .f32) (wc : FVec Ideal S64x1 .f32) (x : FVec Ideal S16384x128 .f32)
    (j : Fin 9) (b : Fin 16384) :
    ∑ k : Fin 128, blockWeight wa wc (ix2 k (⟨j.val, by have := j.isLt; omega⟩ : Fin 10)) * x (ix2 b k)
      = ∑ k : Fin 64, x (ix2 b (⟨k.val, by have := k.isLt; omega⟩ : Fin 128)) * wa (ix2 k j) := by
  refine (sum_halves _).trans ?_
  refine (congrArg₂ (· + ·) (Finset.sum_congr rfl fun k _ => ?_) (Finset.sum_eq_zero fun k _ => ?_)).trans (add_zero _)
  · exact (congrArg (· * x (ix2 b _)) (blockWeight_upper_left wa wc k j)).trans (mul_comm _ _)
  · exact (congrArg (· * x (ix2 b _)) (blockWeight_lower_left wa wc k j)).trans (zero_mul _)

/-- Column 9 of the block matrix against a row of activations: the upper 64 terms vanish, the lower 64 are the second
    head's. -/
theorem blockWeight_sum_right (wa : FVec Ideal S64x9 .f32) (wc : FVec Ideal S64x1 .f32) (x : FVec Ideal S16384x128 .f32)
    (b : Fin 16384) :
    ∑ k : Fin 128, blockWeight wa wc (ix2 k (9 : Fin 10)) * x (ix2 b k)
      = ∑ k : Fin 64, x (ix2 b (⟨64 + k.val, by have := k.isLt; omega⟩ : Fin 128)) * wc (ix2 k 0) := by
  refine (sum_halves _).trans ?_
  refine (congrArg₂ (· + ·) (Finset.sum_eq_zero fun k _ => ?_) (Finset.sum_congr rfl fun k _ => ?_)).trans (zero_add _)
  · exact (congrArg (· * x (ix2 b _)) (blockWeight_upper_right wa wc k)).trans (zero_mul _)
  · exact (congrArg (· * x (ix2 b _)) (blockWeight_lower_right wa wc k)).trans (mul_comm _ _)

/-! ## The body's sum, and its two slices, at an entry -/

/-- The body's 10 × 16384 sum is the weight product of the block matrix with the activations plus the bias column, the
    latter the one-term product of the bias row with the literal one, repeated along the 16384 columns. -/
theorem body_sum_eq (v30 : FVec Ideal S16384x128 .f32) (v31 : FVec Ideal S64x9 .f32) (v35 : FVec Ideal S64x1 .f32)
    (v39 : FVec Ideal S1x9 .f32) (v41 : FVec Ideal S1x1 .f32) :
    Cert.KernelIdeal.Gen.k0_pay1 (F := Ideal) v30 v31 (Cert.KernelIdeal.Gen.k0_pay5 (F := Ideal)) v35 v39 v41
      = addf (matmul dot_S128x10_S16384x128_S10x16384_0_1_1_0_n_n none (blockWeight v31 v35) v30
            (constant S10x16384 .f32 0x00000000#32))
          (broadcastTo S10x16384
            (matmul dot_S1x10_S1x1_S10x1_0_0_1_1_n_n none
              (concatenate S1x10 1 [⟨S1x9, shapeCast S1x9 v39 Facts₀.shapeCasts_S1x9_S1x9⟩,
                ⟨S1x1, shapeCast S1x1 v41 Facts₀.shapeCasts_S1x1_S1x1⟩] Facts₀.concatenates_S1x9_S1x1_S1x10_d1)
              (broadcast S1x1 (Ideal.ofBits .f32 0x3F800000#32)) (constant S10x1 .f32 0x00000000#32))
            Facts₀.broadcasts_S10x1_S10x16384) := rfl

/-- Entry `(c, b)` of the body's sum: column `c` of the block matrix against row `b` of the activations, plus
    entry `c` of the bias row (times one). -/
theorem body_sum_apply (v30 : FVec Ideal S16384x128 .f32) (v31 : FVec Ideal S64x9 .f32) (v35 : FVec Ideal S64x1 .f32)
    (v39 : FVec Ideal S1x9 .f32) (v41 : FVec Ideal S1x1 .f32) (c : Fin 10) (b : Fin 16384) :
    Cert.KernelIdeal.Gen.k0_pay1 (F := Ideal) v30 v31 (Cert.KernelIdeal.Gen.k0_pay5 (F := Ideal)) v35 v39 v41 (ix2 c b)
      = ∑ k : Fin 128, blockWeight v31 v35 (ix2 k c) * v30 (ix2 b k)
        + concatenate S1x10 1 [⟨S1x9, v39⟩, ⟨S1x1, v41⟩] Facts₀.concatenates_S1x9_S1x1_S1x10_d1 (ix2 0 c) := by
  refine (congrFun (body_sum_eq v30 v31 v35 v39 v41) (ix2 c b)).trans ?_
  refine (addf_apply _ _ _).trans ?_
  refine congrArg₂ (· + ·) (weight_product_apply _ _ c b) ?_
  refine (broadcastTo_apply _ _ (ix2 c b) (ix2 c 0) (fun a => match a with
    | ⟨0, _⟩ => by show c.val = if (10 : Nat) = 1 then 0 else c.val; rw [if_neg (by decide)]
    | ⟨1, _⟩ => by show (0 : Nat) = if (1 : Nat) = 1 then 0 else b.val; rw [if_pos rfl])).trans ?_
  refine (bias_product_apply _ _ c).trans ?_
  rw [shapeCast_self, shapeCast_self]
  show _ * Ideal.ofBits .f32 0x3F800000#32 = _
  rw [ofBits_one_f32, mul_one]

/-- Rows 0 to 8 of the body's sum, the logits, at an entry: the first head's 64-term sum plus its bias. -/
theorem head_logits (v30 : Mat 16384 128) (v31 : Mat 64 9) (v35 : Mat 64 1) (v39 : Mat 1 9) (v41 : Mat 1 1) (j : Fin 9) (b : Fin 16384) :
    Cert.KernelIdeal.Gen.k0_pay2 (F := Ideal) v30 v31 (Cert.KernelIdeal.Gen.k0_pay5 (F := Ideal)) v35 v39 v41 (ix2 j b)
      = ∑ k : Fin 64, v30 (ix2 b (⟨k.val, by have := k.isLt; omega⟩ : Fin 128)) * v31 (ix2 k j) + v39 (ix2 0 j) := by
  show extractStridedSlice S9x16384 ![0, 0]
      (Cert.KernelIdeal.Gen.k0_pay1 (F := Ideal) v30 v31 (Cert.KernelIdeal.Gen.k0_pay5 (F := Ideal)) v35 v39 v41)
      Facts₀.slices_S10x16384_o0_0_S9x16384 (ix2 j b) = _
  refine (extractStridedSlice_apply ![0, 0] _ _ (ix2 j b) (ix2 (⟨j.val, by have := j.isLt; omega⟩ : Fin 10) b) (fun a => match a with
    | ⟨0, _⟩ => by show j.val = 0 + j.val; omega
    | ⟨1, _⟩ => by show b.val = 0 + b.val; omega)).trans ?_
  refine (body_sum_apply v30 v31 v35 v39 v41 _ b).trans ?_
  exact congrArg₂ (· + ·) (blockWeight_sum_left v31 v35 v30 j b) (bias_row_apply_left v39 v41 _ j)

/-- Row 9 of the body's sum, the value, at an entry: the second head's 64-term sum plus its bias. -/
theorem head_value (v30 : Mat 16384 128) (v31 : Mat 64 9) (v35 : Mat 64 1) (v39 : Mat 1 9) (v41 : Mat 1 1) (b : Fin 16384) :
    Cert.KernelIdeal.Gen.k0_pay3 (F := Ideal) v30 v31 (Cert.KernelIdeal.Gen.k0_pay5 (F := Ideal)) v35 v39 v41 (ix2 0 b)
      = ∑ k : Fin 64, v30 (ix2 b (⟨64 + k.val, by have := k.isLt; omega⟩ : Fin 128)) * v35 (ix2 k 0) + v41 (ix2 0 0) := by
  show extractStridedSlice S1x16384 ![9, 0]
      (Cert.KernelIdeal.Gen.k0_pay1 (F := Ideal) v30 v31 (Cert.KernelIdeal.Gen.k0_pay5 (F := Ideal)) v35 v39 v41)
      Facts₀.slices_S10x16384_o9_0_S1x16384 (ix2 (0 : Fin 1) b) = _
  refine (extractStridedSlice_apply ![9, 0] _ _ (ix2 (0 : Fin 1) b) (ix2 (9 : Fin 10) b) (fun a => match a with
    | ⟨0, _⟩ => by show (9 : Nat) = 9 + 0; omega
    | ⟨1, _⟩ => by show b.val = 0 + b.val; omega)).trans ?_
  refine (body_sum_apply v30 v31 v35 v39 v41 _ b).trans ?_
  exact congrArg₂ (· + ·) (blockWeight_sum_right v31 v35 v30 b) (bias_row_apply_right v39 v41 _)

end Cert.Mlp

end
-- ==== Proof.Bridge.lean ====
/-
  The idealized kernel program's two results are the specification's arrays.

  The kernel receives the states transposed and each bias as a 1 × n row; read at an index these layouts give back the
  argument's entry (`transposed_state`, `row128` … `row1`), so the encoder the kernel computes on its operands is the
  encoder of the arguments. The body's last stage multiplies a block-diagonal 128 × 10 weight by the 128 hidden
  activations: its first nine rows see only the left 64 activations — the actor's hidden layer — and its tenth only the
  right 64 — the critic's. Transposing the 9 × 16384 block, and reshaping the 1 × 16384 row to a column, puts each
  entry where the reference has it: the 16384 × 9 logits and the 16384 × 1 values of the specification.
-/
import proofs.«147933_g49220325212179_cont_8to1c4_445_34_alg».proof.Proof.Net
import proofs.«147933_g49220325212179_cont_8to1c4_445_34_alg».proof.Proof.Hidden
import proofs.«147933_g49220325212179_cont_8to1c4_445_34_alg».proof.Proof.Heads
import proofs.«147933_g49220325212179_cont_8to1c4_445_34_alg».proof.Proof.KernelRun
import Idealize.ShloMosaic.Lib.Pipeline.Value
import Idealize.ShloMosaic.Lib.ValueIdx
import Idealize.ShloMosaic.PureOps.Ideal.Laws

noncomputable section

namespace Cert.Mlp

open Idealize.ShloMosaic Idealize.ShloMosaic.ValueIdx Cert.KernelIdeal Cert.KernelIdeal.Gen

/-! ## The seven layout operations on the arguments, read at an index -/

/-- The transposed state matrix at `(k, b)` is the state matrix at `(b, k)`. -/
theorem transposed_state (a0 : Mat 16384 36) (k : Fin 36) (b : Fin 16384) :
    transpose S36x16384 [1, 0] a0 transposes_S16384x36_S36x16384_1_0 (ix2 k b) = a0 (ix2 b k) :=
  transpose_apply [1, 0] a0 transposes_S16384x36_S36x16384_1_0 (ix2 k b) (ix2 b k)
    (fun d => match d with | ⟨0, _⟩ => rfl | ⟨1, _⟩ => rfl)

/-- A bias of length 128 laid out as a 1 × 128 row, at `(0, j)`, is the bias at `j`. -/
theorem row128 (a : Row 128) (j : Fin 128) : broadcastInDim S1x128 ![1] bcast_S128_S1x128_1 a (ix2 0 j) = a (ix1 j) :=
  broadcastInDim_apply _ bcast_S128_S1x128_1 a (ix2 0 j) (ix1 j) (fun d => match d with
    | ⟨0, _⟩ => by show j.val = if (128 : Nat) = 1 then 0 else j.val; rw [if_neg (by decide)])

/-- The same for a bias of length 64. -/
theorem row64 (a : Row 64) (j : Fin 64) : broadcastInDim S1x64 ![1] bcast_S64_S1x64_1 a (ix2 0 j) = a (ix1 j) :=
  broadcastInDim_apply _ bcast_S64_S1x64_1 a (ix2 0 j) (ix1 j) (fun d => match d with
    | ⟨0, _⟩ => by show j.val = if (64 : Nat) = 1 then 0 else j.val; rw [if_neg (by decide)])

/-- The same for the 9 logit biases. -/
theorem row9 (a : Row 9) (j : Fin 9) : broadcastInDim S1x9 ![1] bcast_S9_S1x9_1 a (ix2 0 j) = a (ix1 j) :=
  broadcastInDim_apply _ bcast_S9_S1x9_1 a (ix2 0 j) (ix1 j) (fun d => match d with
    | ⟨0, _⟩ => by show j.val = if (9 : Nat) = 1 then 0 else j.val; rw [if_neg (by decide)])

/-- The one value bias: its row has the single entry `(0, 0)`. -/
theorem row1 (a : Row 1) (j : Fin 1) : broadcastInDim S1x1 ![1] bcast_S1_S1x1_1 a (ix2 0 j) = a (ix1 j) :=
  broadcastInDim_apply _ bcast_S1_S1x1_1 a (ix2 0 j) (ix1 j) (fun d => match d with
    | ⟨0, _⟩ => by show j.val = if (1 : Nat) = 1 then 0 else j.val; rw [if_pos rfl]; have := j.isLt; omega)

/-- The encoder as the kernel sees its operands (transposed states, biases as rows) is the encoder of the arguments. -/
theorem enc_of_operands (a0 : Mat 16384 36) (a1 : Mat 36 128) (a2 : Row 128) (a3 : Mat 128 64) (a4 : Row 64) :
    enc (fun b k => transpose S36x16384 [1, 0] a0 transposes_S16384x36_S36x16384_1_0 (ix2 k b)) a1
        (fun j => broadcastInDim S1x128 ![1] bcast_S128_S1x128_1 a2 (ix2 0 j)) a3
        (fun j => broadcastInDim S1x64 ![1] bcast_S64_S1x64_1 a4 (ix2 0 j))
      = enc (fun b k => a0 (ix2 b k)) a1 (fun j => a2 (ix1 j)) a3 (fun j => a4 (ix1 j)) := by
  have h0 : (fun (b : Fin 16384) (k : Fin 36) => transpose S36x16384 [1, 0] a0 transposes_S16384x36_S36x16384_1_0 (ix2 k b))
      = fun b k => a0 (ix2 b k) := funext fun b => funext fun k => transposed_state a0 k b
  have h2 : (fun j : Fin 128 => broadcastInDim S1x128 ![1] bcast_S128_S1x128_1 a2 (ix2 0 j)) = fun j => a2 (ix1 j) :=
    funext fun j => row128 a2 j
  have h4 : (fun j : Fin 64 => broadcastInDim S1x64 ![1] bcast_S64_S1x64_1 a4 (ix2 0 j)) = fun j => a4 (ix1 j) :=
    funext fun j => row64 a4 j
  rw [h0, h2, h4]

/-! ## The kernel program's two results are the specification's arrays -/

/-- The first result: at `(b, j)` the transposed output is the body's row `j`, column `b`; that is the actor head's affine
    map of the left half of the hidden activations, which is the actor's hidden layer on the encoding. -/
theorem kernel_logits (a0 : Mat 16384 36) (a1 : Mat 36 128) (a2 : Row 128) (a3 : Mat 128 64) (a4 : Row 64)
    (a5 : Mat 64 64) (a6 : Row 64) (a7 : Mat 64 9) (a8 : Row 9) (a9 : Mat 64 64) (a10 : Row 64) (a11 : Mat 64 1) (a12 : Row 1) :
    Cert.KernelIdeal.Whole.logitsOf (F := Ideal) a0 a1 a2 a3 a4 a5 a6 a7 a8 a9 a10 a11 a12 = logits a0 a1 a2 a3 a4 a5 a6 a7 a8 := by
  funext i
  obtain ⟨b, j, rfl⟩ : ∃ (b : Fin 16384) (j : Fin 9), i = ix2 b j := ⟨i 0, i 1, eq_ix2 i⟩
  unfold Cert.KernelIdeal.Whole.logitsOf
  refine (transpose_apply [1, 0] _ transposes_S9x16384_S16384x9_1_0 (ix2 b j) (ix2 j b)
    (fun d => match d with | ⟨0, _⟩ => rfl | ⟨1, _⟩ => rfl)).trans ?_
  unfold Cert.KernelIdeal.Whole.logitsBlock
  refine (head_logits _ _ _ _ _ j b).trans ?_
  rw [row9]
  show _ = ∑ k : Fin 64, act (enc (fun b k => a0 (ix2 b k)) a1 (fun j => a2 (ix1 j)) a3 (fun j => a4 (ix1 j)))
      a5 (fun j => a6 (ix1 j)) b k * a7 (ix2 k j) + a8 (ix1 j)
  refine congrArg (fun s => s + a8 (ix1 j)) ?_
  refine Finset.sum_congr rfl fun k _ => ?_
  rw [hidden_left, enc_of_operands]
  have h6 : (fun j : Fin 64 => broadcastInDim S1x64 ![1] bcast_S64_S1x64_1 a6 (ix2 0 j)) = fun j => a6 (ix1 j) :=
    funext fun j => row64 a6 j
  rw [h6]

/-- The second result: the reshaped 1 × 16384 output at `(b, 0)` is the body's row 0, column `b`: the critic head's affine
    map of the right half of the hidden activations. -/
theorem kernel_value (a0 : Mat 16384 36) (a1 : Mat 36 128) (a2 : Row 128) (a3 : Mat 128 64) (a4 : Row 64)
    (a5 : Mat 64 64) (a6 : Row 64) (a7 : Mat 64 9) (a8 : Row 9) (a9 : Mat 64 64) (a10 : Row 64) (a11 : Mat 64 1) (a12 : Row 1) :
    Cert.KernelIdeal.Whole.valueOf (F := Ideal) a0 a1 a2 a3 a4 a5 a6 a7 a8 a9 a10 a11 a12 = value a0 a1 a2 a3 a4 a9 a10 a11 a12 := by
  funext i
  obtain ⟨b, j, rfl⟩ : ∃ (b : Fin 16384) (j : Fin 1), i = ix2 b j := ⟨i 0, i 1, eq_ix2 i⟩
  obtain rfl : j = 0 := Fin.ext (by have := j.isLt; omega)
  unfold Cert.KernelIdeal.Whole.valueOf
  refine (shapeCast_apply _ shapeCasts_S1x16384_S16384x1 (ix2 b 0) (ix2 0 b) ?_).trans ?_
  · rw [Shape.rowMajor_val_two, Shape.rowMajor_val_two]
    show (0 : ℕ) * 16384 + b.val = b.val * 1 + 0
    omega
  unfold Cert.KernelIdeal.Whole.valueBlock
  refine (head_value _ _ _ _ _ b).trans ?_
  rw [row1]
  show _ = ∑ k : Fin 64, act (enc (fun b k => a0 (ix2 b k)) a1 (fun j => a2 (ix1 j)) a3 (fun j => a4 (ix1 j)))
      a9 (fun j => a10 (ix1 j)) b k * a11 (ix2 k 0) + a12 (ix1 0)
  refine congrArg (fun s => s + a12 (ix1 0)) ?_
  refine Finset.sum_congr rfl fun k _ => ?_
  rw [hidden_right, enc_of_operands]
  have h10 : (fun j : Fin 64 => broadcastInDim S1x64 ![1] bcast_S64_S1x64_1 a10 (ix2 0 j)) = fun j => a10 (ix1 j) :=
    funext fun j => row64 a10 j
  rw [h10]

end Cert.Mlp

end
-- ==== Proof.lean ====
/-
  The certificate: a fused kernel for a small policy network against its plain reference, over the extended reals.

  Both programs take a batch of 16384 states and twelve weight and bias arrays, and return 9 logits and 1 value per
  state: two encoder layers and, on the encoding, an actor head and a critic head, each one hidden layer and one affine
  map (Proof/Net.lean states this network once, coordinate by coordinate). The reference does it with six matrix
  products. The kernel does it with four: it sets the two heads' hidden weights side by side, so ONE product gives both
  hidden layers, and the two heads' output weights on the diagonal of a 128 × 10 matrix of otherwise exact zeros, so ONE
  product gives all ten outputs; it also works on transposed states and writes transposed outputs.

  Why the two agree exactly on the extended reals: a column of the side-by-side product is a column of one head's
  product; in the block-diagonal product each output's sum over 128 terms splits into the 64 terms of its own head and
  64 terms of the form `0 · x`, and `0 · x = 0` for every extended real `x`, infinite or not; the bias the kernel adds
  as `bias · 1` is the bias. Sums of extended reals may be split and re-indexed freely (a commutative monoid). No step
  uses distributivity or cancellation, so the precondition that the inputs are finite is never opened.

  The pieces: Proof/RefNet.lean (the reference is the network), Proof/Hidden.lean and Proof/Heads.lean (the kernel body's
  two stages, read at a coordinate), Proof/KernelRun.lean (what the kernel program leaves in its results, from the
  frame run), Proof/Bridge.lean (those results are the network), and the claims below.
-/
import proofs.«147933_g49220325212179_cont_8to1c4_445_34_alg».proof.Defs
import proofs.«147933_g49220325212179_cont_8to1c4_445_34_alg».proof.Proof.Gen.Kernel
import proofs.«147933_g49220325212179_cont_8to1c4_445_34_alg».proof.Proof.Gen.Kernel.Skeleton
import proofs.«147933_g49220325212179_cont_8to1c4_445_34_alg».proof.Proof.Gen.Kernel.Launch
import proofs.«147933_g49220325212179_cont_8to1c4_445_34_alg».proof.Proof.Gen.Kernel.Points
import proofs.«147933_g49220325212179_cont_8to1c4_445_34_alg».proof.Proof.Gen.Kernel.Frame
import proofs.«147933_g49220325212179_cont_8to1c4_445_34_alg».proof.Proof.Gen.KernelIdeal
import proofs.«147933_g49220325212179_cont_8to1c4_445_34_alg».proof.Proof.Gen.KernelIdeal.Skeleton
import proofs.«147933_g49220325212179_cont_8to1c4_445_34_alg».proof.Proof.Gen.KernelIdeal.Launch
import proofs.«147933_g49220325212179_cont_8to1c4_445_34_alg».proof.Proof.Gen.KernelIdeal.Points
import proofs.«147933_g49220325212179_cont_8to1c4_445_34_alg».proof.Proof.Gen.KernelIdeal.Frame
import proofs.«147933_g49220325212179_cont_8to1c4_445_34_alg».proof.Proof.Gen.ReferenceIdeal
import proofs.«147933_g49220325212179_cont_8to1c4_445_34_alg».proof.Proof.Gen.ReferenceIdeal.Run
import proofs.«147933_g49220325212179_cont_8to1c4_445_34_alg».proof.Proof.Gen.ReferenceIdeal.Read
import proofs.«147933_g49220325212179_cont_8to1c4_445_34_alg».proof.Proof.Gen.Pre_finite_inputs
import proofs.«147933_g49220325212179_cont_8to1c4_445_34_alg».proof.Proof.KernelRun
import proofs.«147933_g49220325212179_cont_8to1c4_445_34_alg».proof.Proof.RefNet
import proofs.«147933_g49220325212179_cont_8to1c4_445_34_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel: there is nothing to preserve. -/
theorem preserves : Cert.preserves_Kernel_KernelIdeal := trivial

/-- From memories that agree on the thirteen arguments, both idealized programs end with the network's logits and
    values of those arguments: the kernel by its run and the bridge, the reference by its run read stage by stage. -/
theorem algebraic : Cert.algebraic_KernelIdeal_ReferenceIdeal := by
  intro m ρ m' ρ' _ hagree
  refine ⟨fun c => Cert.Mlp.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Mlp.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Mlp.kernel_logits _ _ _ _ _ _ _ _ _ _ _ _ _),
        (h c).2.1.trans (Cert.Mlp.kernel_value _ _ _ _ _ _ _ _ _ _ _ _ _), (h c).2.2⟩)
      (Cert.KernelIdeal.Whole.run (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v18_eq, Cert.Mlp.ref_logits,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    · rw [(h c).2.1, Cert.ReferenceIdeal.Read.val_main_v27_eq, Cert.Mlp.ref_value,
        (hagree c).1, (hagree c).2.1, (hagree c).2.2.1, (hagree c).2.2.2.1, (hagree c).2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
